-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x1 .f32 .bf16
  ∧ IdealRules.truncf_extf.Statement Cert.KernelIdeal.S1x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S1x1 : Shape := ⟨2, ![1, 1]⟩
abbrev S1x2048x3 : Shape := ⟨3, ![1, 2048, 3]⟩
abbrev S1x3x4096 : Shape := ⟨3, ![1, 3, 4096]⟩
abbrev S1x4096 : Shape := ⟨2, ![1, 4096]⟩
abbrev S2048x3 : Shape := ⟨2, ![2048, 3]⟩
abbrev S3x4096 : Shape := ⟨2, ![3, 4096]⟩
abbrev S2048 : Shape := ⟨1, ![2048]⟩
abbrev S2048x1 : Shape := ⟨2, ![2048, 1]⟩
abbrev S2048x2 : Shape := ⟨2, ![2048, 2]⟩
abbrev S2048x7 : Shape := ⟨2, ![2048, 7]⟩
abbrev S4096 : Shape := ⟨1, ![4096]⟩
abbrev S2x4096 : Shape := ⟨2, ![2, 4096]⟩
abbrev S7x4096 : Shape := ⟨2, ![7, 4096]⟩
abbrev S2048x4096 : Shape := ⟨2, ![2048, 4096]⟩
abbrev S1x2048 : Shape := ⟨2, ![1, 2048]⟩
abbrev S1 : Shape := ⟨1, ![1]⟩
abbrev S1x1x4096 : Shape := ⟨3, ![1, 1, 4096]⟩
abbrev S1x1x1 : Shape := ⟨3, ![1, 1, 1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S1x1, .f32⟩
  | .hbm, ⟨4, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1, .f32⟩
  | .local _ .vmem, ⟨5, _⟩ => ⟨S1x4096, .bf16⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  transposes_S4x4096x3_S4x3x4096_0_2_1 : S4x4096x3.Transposes [0, 2, 1] S4x3x4096
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S2048x3_S2048 : S2048x3.Reduces [1] S2048
  shapeCasts_S2048_S2048x1 : S2048.ShapeCasts S2048x1
  bitsLt_bf16_f32 : FTy.bits .bf16 < FTy.bits .f32
  concatenates_S2048x3_S2048x1_S2048x1_S2048x2_S2048x7_d1 : Shape.Concatenates [S2048x3, S2048x1, S2048x1, S2048x2] S2048x7 1
  reduces_S3x4096_S4096 : S3x4096.Reduces [0] S4096
  shapeCasts_S4096_S1x4096 : S4096.ShapeCasts S1x4096
  concatenates_S3x4096_S2x4096_S1x4096_S1x4096_S7x4096_d0 : Shape.Concatenates [S3x4096, S2x4096, S1x4096, S1x4096] S7x4096 0
  reduces_S2048x4096_S2048 : S2048x4096.Reduces [1] S2048
  reduces_S2048x4096_S4096 : S2048x4096.Reduces [0] S4096
  inb_S1x1_S1x1_0_0 : ∀ a, (![0, 0] : Fin 2 → Nat) a + S1x1.size a ≤ S1x1.size a
  h_S1x1 : 0 < S1x1.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  packedbf16_S1x4096_S1x4096_0_0 : (Rect.unit (s := S1x4096) ![0, 0] S1x4096.size inb_S1x4096_S1x4096_0_0).PackedRows (EltTy.packing .bf16)
  shapeCasts_S1x1_S1x1 : S1x1.ShapeCasts S1x1
  shapeCasts_S2048_S1x2048 : S2048.ShapeCasts S1x2048
  reduces_S1x2048_S1 : S1x2048.Reduces [1] S1
  shapeCasts_S1_S1x1 : S1.ShapeCasts S1x1
  inpos_S1x1_p0_0 : ∀ a, (![0, 0] : Fin 2 → Nat) a < S1x1.size a
  shapeCasts_S1x4096_S1x1x4096 : S1x4096.ShapeCasts S1x1x4096
  reduces_S1x1x4096_S1 : S1x1x4096.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S2048x7_S7x4096_S2048x4096_1_0_0_1_n_n_wf : DotDims.WF S2048x7 S7x4096 S2048x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x4096x3.size a
  hwx0_0 : ∀ i : grid0.Coords, EltTy.bits .f32 = 32 ∨ (Rect.block (s := S4x4096x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S2048x7_S7x4096_S2048x4096_1_0_0_1_n_n : DotDims S2048x7 S7x4096 S2048x4096 where
  lhsContracting := [1]
  rhsContracting := [0]
  lhsNonContracting := [0]
  rhsNonContracting := [1]
  lhsBatch := []
  rhsBatch := []
  wf := dot_S2048x7_S7x4096_S2048x4096_1_0_0_1_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.Spec.lean ====
/-
  The Chamfer distance of two batches of point clouds, as plain functions on the extended reals.

  A cloud is `Fin 4 → Fin 4096 → Fin 3 → EReal`: batch, point, coordinate. Two spellings of the squared
  distance between points `p` and `q` appear: `dist`, which clamps `|p|² + |q|² − 2·⟨p, q⟩` at zero, and
  `wdist`, the inner product of two 7-vectors built from `p` and from `q` so that the one contraction
  already yields `|p|² + |q|² − 2·⟨p, q⟩` (the clamp is applied later, to a minimum). They agree on
  finite points after clamping. The nearest-neighbour distances are minima of these over one cloud, the
  Chamfer distance is the sum over the batch of the two means; `total` is the same number accumulated
  half a cloud at a time, batch after batch.
-/
import Idealize.ShloMosaic.PureOps.Ideal
import Idealize.ShloMosaic.Lib.ValueIdx

noncomputable section

namespace Cert.Chamfer

open Idealize.ShloMosaic

/-- A batch of four clouds of 4096 points in three coordinates. -/
abbrev Cloud := Fin 4 → Fin 4096 → Fin 3 → EReal

/-- The squared norm of a point. -/
def sqn (p : Fin 3 → EReal) : EReal := ∑ c : Fin 3, p c * p c

/-- The inner product of two points. -/
def dot3 (p q : Fin 3 → EReal) : EReal := ∑ c : Fin 3, p c * q c

/-- The squared distance `|p|² + |q|² − 2·⟨p, q⟩`, clamped at zero. -/
def dist (p q : Fin 3 → EReal) : EReal := max ((sqn p + sqn q) - 2 * dot3 p q) 0

/-- The point `p` as a row of seven entries: `−2p`, `|p|²`, the remainder `|p|² − |p|²`, and two ones. -/
def aug1 (p : Fin 3 → EReal) : Fin 7 → EReal :=
  ![(-2) * p 0, (-2) * p 1, (-2) * p 2, sqn p, sqn p - sqn p, 1, 1]

/-- The point `q` as a column of seven entries: `q`, two ones, `|q|²` and the remainder `|q|² − |q|²`. -/
def aug2 (q : Fin 3 → EReal) : Fin 7 → EReal :=
  ![q 0, q 1, q 2, 1, 1, sqn q, sqn q - sqn q]

/-- The unclamped squared distance as ONE contraction of the two augmented vectors. -/
def wdist (p q : Fin 3 → EReal) : EReal := ∑ k : Fin 7, aug1 p k * aug2 q k

/-- The mean's factor `1/4096`. -/
def inv4096 : EReal := ((1 / 4096 : ℝ) : EReal)

/-- Point `n` of `x`'s batch `b`: its squared distance to the nearest point of `y`'s batch `b`. -/
def near1 (x y : Cloud) (b : Fin 4) (n : Fin 4096) : EReal :=
  (Finset.univ : Finset (Fin 4096)).fold min ⊤ (fun m => dist (x b n) (y b m))

/-- Point `m` of `y`'s batch `b`: its squared distance to the nearest point of `x`'s batch `b`. -/
def near2 (x y : Cloud) (b : Fin 4) (m : Fin 4096) : EReal :=
  (Finset.univ : Finset (Fin 4096)).fold min ⊤ (fun n => dist (x b n) (y b m))

/-- The Chamfer distance: over the batch, the mean of `near1` plus the mean of `near2`. -/
def chamfer (x y : Cloud) : EReal :=
  ∑ b : Fin 4, ((∑ n : Fin 4096, near1 x y b n) * inv4096 + (∑ m : Fin 4096, near2 x y b m) * inv4096)

/-- Row `r` of half `i` of a cloud: point `2048·i + r`. -/
def rowOf (i : Fin 2) (r : Fin 2048) : Fin 4096 := ⟨i.val * 2048 + r.val, by omega⟩

/-- The unclamped minimum over `y`'s batch, clamped afterwards. -/
def rowNear (x y : Cloud) (b : Fin 4) (n : Fin 4096) : EReal :=
  max ((Finset.univ : Finset (Fin 4096)).fold min ⊤ (fun m => wdist (x b n) (y b m))) 0

/-- The unclamped minimum over half `i` of `x`'s batch. -/
def colNear (x y : Cloud) (b : Fin 4) (i : Fin 2) (m : Fin 4096) : EReal :=
  (Finset.univ : Finset (Fin 2048)).fold min ⊤ (fun r => wdist (x b (rowOf i r)) (y b m))

/-- The sum of `rowNear` over half `i`. -/
def halfSum (x y : Cloud) (b : Fin 4) (i : Fin 2) : EReal := ∑ r : Fin 2048, rowNear x y b (rowOf i r)

/-- The sum over `y`'s batch of the two halves' minima, joined and clamped. -/
def colSum (x y : Cloud) (b : Fin 4) : EReal :=
  ∑ m : Fin 4096, max (min (colNear x y b 0 m) (colNear x y b 1 m)) 0

/-- One batch added to a running total, in the order the halves arrive. -/
def step (x y : Cloud) (b : Fin 4) (acc : EReal) : EReal :=
  ((acc + halfSum x y b 0 * inv4096) + halfSum x y b 1 * inv4096) + colSum x y b * inv4096

/-- The four batches accumulated from zero. -/
def total (x y : Cloud) : EReal := step x y 3 (step x y 2 (step x y 1 (step x y 0 0)))

/-- Every coordinate of every point is a real number. -/
def Finite (x : Cloud) : Prop := ∀ b n c, ∃ r : ℝ, x b n c = (r : EReal)

end Cert.Chamfer

end
-- ==== Proof.State.lean ====
import proofs.«170437_g37056977829910_cont_8to1_b_94_13_alg».proof.Proof.Gen.KernelIdeal.Frame
import proofs.«170437_g37056977829910_cont_8to1_b_94_13_alg».proof.Proof.Spec
import Idealize.ShloMosaic.Lib.ValueIdx

set_option maxRecDepth 16384

noncomputable section

open Idealize.ShloMosaic Idealize.ShloMosaic.TcCoe Idealize.SL.Sem
open Idealize.ShloMosaic.Pipeline (Dat)

/-!
  The running total and the scratch row after each grid point, in the specification's terms.

  After `b` whole batches the total is `wholeBatches b`. Point `2b` (first half of batch `b`) leaves that plus the
  first half's share of the row minima, and the first half's column minima in the scratch row; point `2b + 1`
  leaves `wholeBatches (b + 1)` and the two halves' column minima joined.
-/

namespace Cert.Chamfer

open Cert.KernelIdeal Cert.KernelIdeal.Gen Idealize.ShloMosaic.ValueIdx

variable (m : (ℓ : Loc nD τ sig) → Buf (Elt Ideal) ℓ)

/-- The first argument array on core `c`, read as a batch of clouds. -/
def cloud1 (c : Dev nD) : Cloud := fun b n k => m ((c : Thread nD τ).loc main_arg0) (ix3 b n k)
/-- The second argument array on core `c`, read as a batch of clouds. -/
def cloud2 (c : Dev nD) : Cloud := fun b n k => m ((c : Thread nD τ).loc main_arg1) (ix3 b n k)

/-- Batch number `k`, taken cyclically so that it is defined for every natural number. -/
def bat (k : ℕ) : Fin 4 := ⟨k % 4, Nat.mod_lt _ (by decide)⟩

/-- The total after `b` whole batches. -/
def wholeBatches (x y : Cloud) : ℕ → EReal
  | 0 => 0
  | b + 1 => step x y (bat b) (wholeBatches x y b)

/-- Four whole batches give the accumulated total. -/
theorem wholeBatches_four (x y : Cloud) : wholeBatches x y 4 = total x y := rfl

/-- The total after grid point `t`. -/
def totalAt (x y : Cloud) (t : ℕ) : EReal :=
  if t % 2 = 0 then wholeBatches x y (t / 2) + halfSum x y (bat (t / 2)) 0 * inv4096
  else wholeBatches x y (t / 2 + 1)

/-- The scratch row after grid point `t`. -/
def scratchAt (x y : Cloud) (t : ℕ) (j : Fin 4096) : EReal :=
  if t % 2 = 0 then colNear x y (bat (t / 2)) 0 j
  else min (colNear x y (bat (t / 2)) 0 j) (colNear x y (bat (t / 2)) 1 j)

theorem totalAt_seven (x y : Cloud) : totalAt x y 7 = total x y := by
  unfold totalAt
  rw [if_neg (by decide)]
  exact wholeBatches_four x y

end Cert.Chamfer
end
-- ==== Proof.Pieces.lean ====
import proofs.«170437_g37056977829910_cont_8to1_b_94_13_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What one grid point leaves behind, case by case, as the body's arithmetic applied to what the point found.

  The body keeps two things across points: a running total (a one-element output block) and a row of running
  column minima (a scratch row). Each point first forms, from its block of the first cloud and the whole
  transposed second cloud, the row minima (clamped) and the column minima of its distance table. Then:
  * the very first point starts the total from zero and the scratch from its column minima;
  * a point that opens a batch adds its rows' share to the total it found and restarts the scratch;
  * a point that closes a batch joins its column minima into the scratch it found, adds its rows' share to
    the total it found, and then adds the share of the joined, clamped column minima.
-/

namespace Cert.Chamfer

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point: the total is the rows' share added to the zero just stored. -/
theorem total_first (c : Dev nD) (i : grid0.Coords) (a2 : Memref sig .tc .vmem S1x2048x3 .f32) (h2 : a2.IsWhole) (a3 : Memref sig .tc .vmem S1x3x4096 .f32) (h3 : a3.IsWhole) (a4 : Memref sig .tc .vmem S1x1 .f32) (h4 : a4.IsWhole) (a5 : Memref sig .tc .vmem S1x4096 .bf16) (h5 : a5.IsWhole) (hc0 : cond0_0 i) (hc1 : cond0_1 i) (hc2 : ¬cond0_2 i) (hc3 : ¬cond0_3 i) (x0 : Vec F S1x2048x3 .f32) (x1 : Vec F S1x3x4096 .f32) :
    out0_A_2 c i a2 h2 a3 h3 a4 h4 a5 h5 hc0 hc1 hc2 hc3 x0 x1 = k0_pay3 (k0_pay6 x0 x1) (k0_pay8 (F := F)) := by
  unfold out0_A_2
  rw [View.read_writes_eq_canon _ _ _ (cover0_A_2 c i a2 h2 a3 h3 a4 h4 a5 h5 hc0 hc1 hc2 hc3 x0 x1)]
  unfold kernelRun0_A
  dsimp only
  sl_unfold_words
  rw [View.canon_cons_unit_zero (S := S1x1) hz2]
  simp only [View.readCov_unit_zero (S := S1x1) _ hz2, View.readCov_unit_zero (S := S1x4096) _ hz2]
  simp only [View.readAt_eq_ld, h2.read_unread, h3.read_unread, h4.read_unread, h5.read_unread,
    View.ld_unit_zero (S := S1x2048x3) hz3, View.ld_unit_zero (S := S1x3x4096) hz3, View.ld_unit_zero (S := S1x1) hz2,
    View.ld_unit_zero (S := S1x4096) hz2]

/-- The first point: the scratch row is the point's column minima. -/
theorem scratch_first (c : Dev nD) (i : grid0.Coords) (a2 : Memref sig .tc .vmem S1x2048x3 .f32) (h2 : a2.IsWhole) (a3 : Memref sig .tc .vmem S1x3x4096 .f32) (h3 : a3.IsWhole) (a4 : Memref sig .tc .vmem S1x1 .f32) (h4 : a4.IsWhole) (a5 : Memref sig .tc .vmem S1x4096 .bf16) (h5 : a5.IsWhole) (hc0 : cond0_0 i) (hc1 : cond0_1 i) (hc2 : ¬cond0_2 i) (hc3 : ¬cond0_3 i) (x0 : Vec F S1x2048x3 .f32) (x1 : Vec F S1x3x4096 .f32) :
    sout0_A_0 c i a2 h2 a3 h3 a4 h4 a5 h5 hc0 hc1 hc2 hc3 x0 x1 = k0_pay1 (k0_pay7 x0 x1) := by
  unfold sout0_A_0
  rw [View.read_writes_eq_canon _ _ _ (scover0_A_0 c i a2 h2 a3 h3 a4 h4 a5 h5 hc0 hc1 hc2 hc3 x0 x1)]
  unfold kernelRun0_A
  dsimp only
  sl_unfold_words
  rw [View.canon_unit_zero (S := S1x4096) hz2]
  simp only [View.readAt_eq_ld, h2.read_unread, h3.read_unread, h4.read_unread, h5.read_unread,
    View.ld_unit_zero (S := S1x2048x3) hz3, View.ld_unit_zero (S := S1x3x4096) hz3, View.ld_unit_zero (S := S1x1) hz2,
    View.ld_unit_zero (S := S1x4096) hz2]

/-- A point that opens a later batch: the total it found plus the rows' share. -/
theorem total_open (c : Dev nD) (i : grid0.Coords) (a2 : Memref sig .tc .vmem S1x2048x3 .f32) (h2 : a2.IsWhole) (a3 : Memref sig .tc .vmem S1x3x4096 .f32) (h3 : a3.IsWhole) (a4 : Memref sig .tc .vmem S1x1 .f32) (h4 : a4.IsWhole) (a5 : Memref sig .tc .vmem S1x4096 .bf16) (h5 : a5.IsWhole) (hc0 : ¬cond0_0 i) (hc1 : cond0_1 i) (hc2 : ¬cond0_2 i) (hc3 : ¬cond0_3 i) (x0 : Vec F S1x2048x3 .f32) (x1 : Vec F S1x3x4096 .f32) (xo2 : Vec F S1x1 .f32) :
    out0_C_2 c i a2 h2 a3 h3 a4 h4 a5 h5 hc0 hc1 hc2 hc3 x0 x1 xo2 = k0_pay3 (k0_pay6 x0 x1) xo2 := by
  unfold out0_C_2
  rw [View.read_writes_eq_canon _ _ _ (cover0_C_2 c i a2 h2 a3 h3 a4 h4 a5 h5 hc0 hc1 hc2 hc3 x0 x1 xo2)]
  unfold kernelRun0_C
  dsimp only
  sl_unfold_words
  rw [View.canon_unit_zero (S := S1x1) hz2]
  simp only [View.readAt_eq_ld, h2.read_unread, h3.read_unread, h4.read_unread, h5.read_unread,
    View.ld_unit_zero (S := S1x2048x3) hz3, View.ld_unit_zero (S := S1x3x4096) hz3, View.ld_unit_zero (S := S1x1) hz2,
    View.ld_unit_zero (S := S1x4096) hz2]

/-- A point that opens a later batch: the scratch row restarts at the point's column minima. -/
theorem scratch_open (c : Dev nD) (i : grid0.Coords) (a2 : Memref sig .tc .vmem S1x2048x3 .f32) (h2 : a2.IsWhole) (a3 : Memref sig .tc .vmem S1x3x4096 .f32) (h3 : a3.IsWhole) (a4 : Memref sig .tc .vmem S1x1 .f32) (h4 : a4.IsWhole) (a5 : Memref sig .tc .vmem S1x4096 .bf16) (h5 : a5.IsWhole) (hc0 : ¬cond0_0 i) (hc1 : cond0_1 i) (hc2 : ¬cond0_2 i) (hc3 : ¬cond0_3 i) (x0 : Vec F S1x2048x3 .f32) (x1 : Vec F S1x3x4096 .f32) (xo2 : Vec F S1x1 .f32) :
    sout0_C_0 c i a2 h2 a3 h3 a4 h4 a5 h5 hc0 hc1 hc2 hc3 x0 x1 xo2 = k0_pay1 (k0_pay7 x0 x1) := by
  unfold sout0_C_0
  rw [View.read_writes_eq_canon _ _ _ (scover0_C_0 c i a2 h2 a3 h3 a4 h4 a5 h5 hc0 hc1 hc2 hc3 x0 x1 xo2)]
  unfold kernelRun0_C
  dsimp only
  sl_unfold_words
  rw [View.canon_unit_zero (S := S1x4096) hz2]
  simp only [View.readAt_eq_ld, h2.read_unread, h3.read_unread, h4.read_unread, h5.read_unread,
    View.ld_unit_zero (S := S1x2048x3) hz3, View.ld_unit_zero (S := S1x3x4096) hz3, View.ld_unit_zero (S := S1x1) hz2,
    View.ld_unit_zero (S := S1x4096) hz2]

/-- A point that closes a batch: the scratch row it found joined with the point's column minima. -/
theorem scratch_close (c : Dev nD) (i : grid0.Coords) (a2 : Memref sig .tc .vmem S1x2048x3 .f32) (h2 : a2.IsWhole) (a3 : Memref sig .tc .vmem S1x3x4096 .f32) (h3 : a3.IsWhole) (a4 : Memref sig .tc .vmem S1x1 .f32) (h4 : a4.IsWhole) (a5 : Memref sig .tc .vmem S1x4096 .bf16) (h5 : a5.IsWhole) (hc0 : ¬cond0_0 i) (hc1 : ¬cond0_1 i) (hc2 : cond0_2 i) (hc3 : cond0_3 i) (x0 : Vec F S1x2048x3 .f32) (x1 : Vec F S1x3x4096 .f32) (xo2 : Vec F S1x1 .f32) (xs0 : Vec F S1x4096 .bf16) :
    sout0_B_0 c i a2 h2 a3 h3 a4 h4 a5 h5 hc0 hc1 hc2 hc3 x0 x1 xo2 xs0 = k0_pay2 (k0_pay7 x0 x1) xs0 := by
  unfold sout0_B_0
  rw [View.read_writes_eq_canon _ _ _ (scover0_B_0 c i a2 h2 a3 h3 a4 h4 a5 h5 hc0 hc1 hc2 hc3 x0 x1 xo2 xs0)]
  unfold kernelRun0_B
  dsimp only
  sl_unfold_words
  rw [View.canon_unit_zero (S := S1x4096) hz2]
  simp only [View.readAt_eq_ld, h2.read_unread, h3.read_unread, h4.read_unread, h5.read_unread,
    View.ld_unit_zero (S := S1x2048x3) hz3, View.ld_unit_zero (S := S1x3x4096) hz3, View.ld_unit_zero (S := S1x1) hz2,
    View.ld_unit_zero (S := S1x4096) hz2]

/-- A point that closes a batch: the total it found plus the rows' share, plus the share of the joined scratch row. -/
theorem total_close (c : Dev nD) (i : grid0.Coords) (a2 : Memref sig .tc .vmem S1x2048x3 .f32) (h2 : a2.IsWhole) (a3 : Memref sig .tc .vmem S1x3x4096 .f32) (h3 : a3.IsWhole) (a4 : Memref sig .tc .vmem S1x1 .f32) (h4 : a4.IsWhole) (a5 : Memref sig .tc .vmem S1x4096 .bf16) (h5 : a5.IsWhole) (hc0 : ¬cond0_0 i) (hc1 : ¬cond0_1 i) (hc2 : cond0_2 i) (hc3 : cond0_3 i) (x0 : Vec F S1x2048x3 .f32) (x1 : Vec F S1x3x4096 .f32) (xo2 : Vec F S1x1 .f32) (xs0 : Vec F S1x4096 .bf16) :
    out0_B_2 c i a2 h2 a3 h3 a4 h4 a5 h5 hc0 hc1 hc2 hc3 x0 x1 xo2 xs0 = k0_pay4 (k0_pay2 (k0_pay7 x0 x1) xs0) (k0_pay3 (k0_pay6 x0 x1) xo2) := by
  unfold out0_B_2
  rw [View.read_writes_eq_canon _ _ _ (cover0_B_2 c i a2 h2 a3 h3 a4 h4 a5 h5 hc0 hc1 hc2 hc3 x0 x1 xo2 xs0)]
  unfold kernelRun0_B
  dsimp only
  sl_unfold_words
  rw [View.canon_cons_unit_zero (S := S1x1) hz2]
  simp only [View.readCov_unit_zero (S := S1x1) _ hz2, View.readCov_unit_zero (S := S1x4096) _ hz2]
  simp only [View.readAt_eq_ld, h2.read_unread, h3.read_unread, h4.read_unread, h5.read_unread,
    View.ld_unit_zero (S := S1x2048x3) hz3, View.ld_unit_zero (S := S1x3x4096) hz3, View.ld_unit_zero (S := S1x1) hz2,
    View.ld_unit_zero (S := S1x4096) hz2]

end Cert.Chamfer
end
-- ==== Proof.Blocks.lean ====
import proofs.«170437_g37056977829910_cont_8to1_b_94_13_alg».proof.Proof.Gen.KernelIdeal.Frame
import proofs.«170437_g37056977829910_cont_8to1_b_94_13_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)

/-!
  Which entries of the two clouds a grid point sees.

  The grid is four batches by two halves, visited batch by batch: point `t` works on batch `t / 2` and on half
  `t % 2` of the first cloud's 4096 points. Its first block is rows `2048 · (t % 2) + r` of that batch of the first
  cloud; its second block is the whole batch of the second cloud TRANSPOSED (coordinates by points), the
  transposition being done once, before the grid, on the whole array.
-/

namespace Cert.Chamfer

open Cert.KernelIdeal Cert.KernelIdeal.Gen Idealize.ShloMosaic.ValueIdx

variable {F : FTy → Type} [FloatOps F]
variable (m : (ℓ : Loc nD τ sig) → Buf (Elt F) ℓ)

/-- The batch a grid point works on. -/
def batchOf (t : Fin cfg0.N) : Fin 4 := ⟨t.val / 2, by have := t.isLt; have hN : cfg0.N = 8 := N_0; omega⟩
/-- The half of the first cloud a grid point works on. -/
def halfOf (t : Fin cfg0.N) : Fin 2 := ⟨t.val % 2, by omega⟩

/-- The first window's block index at point `t` is (batch, half, 0). -/
theorem index_first : ∀ t : Fin cfg0.N, win0_0.index t (0 : Fin 3) = t.val / 2 ∧ win0_0.index t (1 : Fin 3) = t.val % 2
    ∧ win0_0.index t (2 : Fin 3) = 0 :=
  (by decide +kernel : ∀ t : Fin grid0.N, _)

/-- The second window's block index at point `t` is (batch, 0, 0). -/
theorem index_second : ∀ t : Fin cfg0.N, win0_1.index t (0 : Fin 3) = t.val / 2 ∧ win0_1.index t (1 : Fin 3) = 0
    ∧ win0_1.index t (2 : Fin 3) = 0 :=
  (by decide +kernel : ∀ t : Fin grid0.N, _)

/-- Row `r`, coordinate `k` of the first block at point `t` is point `2048 · half + r` of the batch in the first cloud. -/
theorem block_first (c : Dev nD) (t : Fin cfg0.N) (r : Fin 2048) (k : Fin 3) :
    (iblk m c 0 t : Vec F S1x2048x3 .f32) (ix3 (0 : Fin 1) r k)
      = m ((c : Thread nD τ).loc main_arg0) (ix3 (batchOf t) (rowOf (halfOf t) r) k) := by
  obtain ⟨e0, e1, e2⟩ := index_first t
  unfold iblk
  rw [View.read_apply]
  show V m c main_arg0 _ = _
  rw [V_main_arg0]
  congr 1
  funext a
  apply Fin.ext
  match a with
  | ⟨0, _⟩ => show win0_0.index t 0 * 1 + 1 * 0 = t.val / 2; rw [e0]; omega
  | ⟨1, _⟩ => show win0_0.index t 1 * 2048 + 1 * r.val = t.val % 2 * 2048 + r.val; rw [e1]; omega
  | ⟨2, _⟩ => show win0_0.index t 2 * 3 + 1 * k.val = k.val; rw [e2]; omega

/-- The array the second window reads is the second cloud with its last two axes exchanged. -/
theorem transposed (c : Dev nD) :
    (V m c main_v0 : S4x3x4096.Idx → F .f32)
      = transpose S4x3x4096 [0, 2, 1] (m ((c : Thread nD τ).loc main_arg1)) transposes_S4x4096x3_S4x3x4096_0_2_1 := by
  show StableHlo.after hostOps0 (fun b => m (c, b)) (Proc.devRef .tc main_v0) = _
  after_results

/-- Coordinate `k`, column `j` of the second block at point `t` is coordinate `k` of point `j` of the batch in the second cloud. -/
theorem block_second (c : Dev nD) (t : Fin cfg0.N) (k : Fin 3) (j : Fin 4096) :
    (iblk m c 1 t : Vec F S1x3x4096 .f32) (ix3 (0 : Fin 1) k j)
      = m ((c : Thread nD τ).loc main_arg1) (ix3 (batchOf t) j k) := by
  obtain ⟨e0, e1, e2⟩ := index_second t
  unfold iblk
  rw [View.read_apply]
  show V m c main_v0 _ = _
  rw [transposed m c]
  have key : ∀ y : S4x3x4096.Idx, (y 0).val = t.val / 2 → (y 1).val = k.val → (y 2).val = j.val →
      transpose S4x3x4096 [0, 2, 1] (m ((c : Thread nD τ).loc main_arg1)) transposes_S4x4096x3_S4x3x4096_0_2_1 y
        = m ((c : Thread nD τ).loc main_arg1) (ix3 (batchOf t) j k) := by
    intro y h0 h1 h2
    have hy : y = ix3 (batchOf t) k j :=
      funext fun a => Fin.ext (by match a with | ⟨0, _⟩ => exact h0 | ⟨1, _⟩ => exact h1 | ⟨2, _⟩ => exact h2)
    rw [hy]
    exact transpose_ix3_021_apply _ _ (batchOf t) k j
  exact key _ (by show win0_1.index t 0 * 1 + 1 * 0 = t.val / 2; rw [e0]; omega)
    (by show win0_1.index t 1 * 3 + 1 * k.val = k.val; rw [e1]; omega)
    (by show win0_1.index t 2 * 4096 + 1 * j.val = j.val; rw [e2]; omega)

end Cert.Chamfer
end
-- ==== Proof.Consts.lean ====
/-
  The float literals the two programs spell, as the extended reals their bit patterns denote: zero, two and
  minus two, the divisor 4096 and the factor 1/4096 (an exact power of two, 2⁻¹²), the bf16 one, and the two
  spellings of plus infinity that the minima start from.
-/
import proofs.«170437_g37056977829910_cont_8to1_b_94_13_alg».proof.Proof.Spec

noncomputable section

namespace Cert.Chamfer

open Idealize.ShloMosaic

theorem w_zero : Ideal.ofBits .f32 0x00000000#32 = 0 := by
  simp [Ideal.ofBits, Ideal.ieee]

theorem w_two : Ideal.ofBits .f32 0x40000000#32 = 2 := by
  simp [Ideal.ofBits, Ideal.ieee, -EReal.coe_mul]; norm_num; norm_cast

theorem w_neg_two : Ideal.ofBits .f32 0xC0000000#32 = -2 := by
  simp [Ideal.ofBits, Ideal.ieee, -EReal.coe_mul]; norm_num; norm_cast

theorem w_4096 : Ideal.ofBits .f32 0x45800000#32 = ((4096 : ℝ) : EReal) := by
  simp [Ideal.ofBits, Ideal.ieee, -EReal.coe_mul]; norm_num

theorem w_inv4096 : Ideal.ofBits .f32 0x39800000#32 = inv4096 := by
  unfold inv4096
  simp [Ideal.ofBits, Ideal.ieee, -EReal.coe_mul]; norm_num

theorem w_top32 : Ideal.ofBits .f32 0x7F800000#32 = ⊤ := by
  simp [Ideal.ofBits, Ideal.ieee]

theorem w_one16 : Ideal.ofBits .bf16 0x3F80#16 = 1 := by
  simp [Ideal.ofBits, Ideal.ieee, -EReal.coe_mul]; norm_num

theorem w_top16 : Ideal.ofBits .bf16 0x7F80#16 = ⊤ := by
  simp [Ideal.ofBits, Ideal.ieee]

end Cert.Chamfer

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Payload.lean ====
/-
  The kernel body's arithmetic read at an index, at exact (extended real) arithmetic.

  The body takes a block of 2048 points of the first cloud (rows) and the whole transposed second cloud
  (columns). For each row point p it forms the seven entries (-2p, |p|², |p|² - |p|², 1, 1) and for each
  column point q the seven entries (q, 1, 1, |q|², |q|² - |q|²); one contraction of the two gives the
  unclamped squared distance |p|² + |q|² - 2⟨p, q⟩ of every pair. Row minima (clamped at zero) and column
  minima of that table are what the body keeps; the rest adds means into a running total.
-/
import proofs.«170437_g37056977829910_cont_8to1_b_94_13_alg».proof.Proof.Gen.KernelIdeal.Skeleton
import proofs.«170437_g37056977829910_cont_8to1_b_94_13_alg».proof.Proof.Spec
import proofs.«170437_g37056977829910_cont_8to1_b_94_13_alg».proof.Proof.Consts
import proofs.«170437_g37056977829910_cont_8to1_b_94_13_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

noncomputable section

namespace Cert.Chamfer

open Idealize.ShloMosaic Idealize.ShloMosaic.ValueIdx
open Cert.KernelIdeal Cert.KernelIdeal.Gen

/-- Row `r` of a block of the first cloud, as a point. -/
def rowPt (x0 : Vec Ideal S1x2048x3 .f32) (r : Fin 2048) : Fin 3 → EReal := fun c => x0 (ix3 0 r c)

/-- Column `mm` of the transposed second cloud, as a point. -/
def colPt (x1 : Vec Ideal S1x3x4096 .f32) (mm : Fin 4096) : Fin 3 → EReal := fun c => x1 (ix3 0 c mm)

/-! ## The payloads that move or join values -/

/-- A cast to the same shape changes nothing. -/
theorem pay1_eq (v33 : FVec Ideal S1x4096 .bf16) : k0_pay1 (F := Ideal) v33 = v33 := by
  unfold k0_pay1
  exact shapeCast_self _ _

/-- The stored zero. -/
theorem pay8_eq : k0_pay8 (F := Ideal) = fun _ => (0 : EReal) := by
  unfold k0_pay8
  funext i
  show Ideal.ofBits .f32 0x00000000#32 = 0
  exact w_zero

/-- The running column minimum joined with this block's. -/
theorem pay2_apply (v33 : FVec Ideal S1x4096 .bf16) (v59 : Vec Ideal S1x4096 .bf16) (mm : Fin 4096) :
    k0_pay2 (F := Ideal) v33 v59 (ix2 0 mm) = min (v59 (ix2 0 mm)) (v33 (ix2 0 mm)) := by
  unfold k0_pay2
  rw [shapeCast_self]
  rfl

/-! ## The two shape casts and the squared norms -/

/-- The row block without its leading unit axis: entry `(r, c)` is coordinate `c` of row point `r`. -/
theorem rowBlock_apply (x0 : Vec Ideal S1x2048x3 .f32) (r : Fin 2048) (c : Fin 3) :
    shapeCast S2048x3 x0 shapeCasts_S1x2048x3_S2048x3 (ix2 r c) = rowPt x0 r c :=
  shapeCast_1ab_ab_apply x0 _ r c

/-- The column block without its leading unit axis: entry `(c, mm)` is coordinate `c` of column point `mm`. -/
theorem colBlock_apply (x1 : Vec Ideal S1x3x4096 .f32) (c : Fin 3) (mm : Fin 4096) :
    shapeCast S3x4096 x1 shapeCasts_S1x3x4096_S3x4096 (ix2 c mm) = colPt x1 mm c :=
  shapeCast_1ab_ab_apply x1 _ c mm

/-- The sum of a row's squares is the squared norm of the row point. -/
theorem rowSq_apply (v1 : FVec Ideal S2048x3 .f32) (p : Fin 3 → EReal) (r : Fin 2048)
    (hv : ∀ c : Fin 3, v1 (ix2 r c) = p c)
    (hφ : FKind.Formats .f32) (hacc : (0x00000000#32 : BitVec 32) = FKind.add.neutral .f32 hφ) :
    multiReduction (F := Ideal) .add [1] S2048 (mulf v1 v1) 0x00000000#32 reduces_S2048x3_S2048 hφ hacc (ix1 r) = sqn p := by
  refine (Ideal.multiReduction_add_single (mulf v1 v1) 0x00000000#32 reduces_S2048x3_S2048 hφ hacc (ix1 r)).trans ?_
  unfold sqn
  show ∑ c : Fin 3, mulf v1 v1 (reduces_S2048x3_S2048.lift (ix1 r) c) = ∑ c : Fin 3, p c * p c
  refine Finset.sum_congr rfl fun (c : Fin 3) _ => ?_
  have e : reduces_S2048x3_S2048.lift (ix1 r) c = ix2 r c :=
    funext fun a => Fin.ext (by match a with | ⟨0, _⟩ => rfl | ⟨1, _⟩ => rfl)
  rw [e]
  show v1 (ix2 r c) * v1 (ix2 r c) = p c * p c
  rw [hv c]

/-- The sum of a column's squares is the squared norm of the column point. -/
theorem colSq_apply (v3 : FVec Ideal S3x4096 .f32) (q : Fin 3 → EReal) (mm : Fin 4096)
    (hv : ∀ c : Fin 3, v3 (ix2 c mm) = q c)
    (hφ : FKind.Formats .f32) (hacc : (0x00000000#32 : BitVec 32) = FKind.add.neutral .f32 hφ) :
    multiReduction (F := Ideal) .add [0] S4096 (mulf v3 v3) 0x00000000#32 reduces_S3x4096_S4096 hφ hacc (ix1 mm) = sqn q := by
  refine (Ideal.multiReduction_add_single (mulf v3 v3) 0x00000000#32 reduces_S3x4096_S4096 hφ hacc (ix1 mm)).trans ?_
  unfold sqn
  show ∑ c : Fin 3, mulf v3 v3 (reduces_S3x4096_S4096.lift (ix1 mm) c) = ∑ c : Fin 3, q c * q c
  refine Finset.sum_congr rfl fun (c : Fin 3) _ => ?_
  have e : reduces_S3x4096_S4096.lift (ix1 mm) c = ix2 c mm :=
    funext fun a => Fin.ext (by match a with | ⟨0, _⟩ => rfl | ⟨1, _⟩ => rfl)
  rw [e]
  show v3 (ix2 c mm) * v3 (ix2 c mm) = q c * q c
  rw [hv c]

/-! ## The two augmented matrices -/

/-- The rows' seven-entry matrix, as the body builds it: `-2p`, `|p|²`, `|p|² - |p|²`, and two ones. -/
def lhsAug (x0 : Vec Ideal S1x2048x3 .f32) : FVec Ideal S2048x7 .bf16 :=
  have v1 : FVec Ideal S2048x3 .f32 := shapeCast S2048x3 x0 shapeCasts_S1x2048x3_S2048x3
  have v4 : FVec Ideal S2048x3 .f32 := mulf v1 v1
  have v5 : FVec Ideal S2048 .f32 := multiReduction .add [1] S2048 v4 0x00000000#32 reduces_S2048x3_S2048 (.inl rfl) rfl
  have v6 : FVec Ideal S2048x1 .f32 := shapeCast S2048x1 v5 shapeCasts_S2048_S2048x1
  have v7 : FVec Ideal S2048x1 .bf16 := truncf .bf16 v6 bitsLt_bf16_f32
  have v8 : FVec Ideal S2048x1 .f32 := v6
  have v9 : FVec Ideal S2048x1 .f32 := subf v6 v8
  have v10 : FVec Ideal S2048x1 .bf16 := truncf .bf16 v9 bitsLt_bf16_f32
  have cst_5 : Ideal .bf16 := Scalar.ofBits .bf16 0x3F80#16
  have v11 : FVec Ideal S2048x2 .bf16 := broadcast S2048x2 cst_5
  have cst_6 : Ideal .f32 := Scalar.ofBits .f32 0xC0000000#32
  have v12 : FVec Ideal S2048x3 .f32 := broadcast S2048x3 cst_6
  have v13 : FVec Ideal S2048x3 .f32 := mulf v12 v1
  have v14 : FVec Ideal S2048x3 .bf16 := truncf .bf16 v13 bitsLt_bf16_f32
  concatenate S2048x7 1 [⟨S2048x3, v14⟩, ⟨S2048x1, v7⟩, ⟨S2048x1, v10⟩, ⟨S2048x2, v11⟩] concatenates_S2048x3_S2048x1_S2048x1_S2048x2_S2048x7_d1

/-- The columns' seven-entry matrix, as the body builds it: `q`, two ones, `|q|²` and `|q|² - |q|²`. -/
def rhsAug (x1 : Vec Ideal S1x3x4096 .f32) : FVec Ideal S7x4096 .bf16 :=
  have v3 : FVec Ideal S3x4096 .f32 := shapeCast S3x4096 x1 shapeCasts_S1x3x4096_S3x4096
  have v16 : FVec Ideal S3x4096 .f32 := mulf v3 v3
  have v17 : FVec Ideal S4096 .f32 := multiReduction .add [0] S4096 v16 0x00000000#32 reduces_S3x4096_S4096 (.inl rfl) rfl
  have v18 : FVec Ideal S1x4096 .f32 := shapeCast S1x4096 v17 shapeCasts_S4096_S1x4096
  have v19 : FVec Ideal S1x4096 .bf16 := truncf .bf16 v18 bitsLt_bf16_f32
  have v20 : FVec Ideal S1x4096 .f32 := v18
  have v21 : FVec Ideal S1x4096 .f32 := subf v18 v20
  have v22 : FVec Ideal S1x4096 .bf16 := truncf .bf16 v21 bitsLt_bf16_f32
  have cst_8 : Ideal .bf16 := Scalar.ofBits .bf16 0x3F80#16
  have v23 : FVec Ideal S2x4096 .bf16 := broadcast S2x4096 cst_8
  have v24 : FVec Ideal S3x4096 .bf16 := truncf .bf16 v3 bitsLt_bf16_f32
  concatenate S7x4096 0 [⟨S3x4096, v24⟩, ⟨S2x4096, v23⟩, ⟨S1x4096, v19⟩, ⟨S1x4096, v22⟩] concatenates_S3x4096_S2x4096_S1x4096_S1x4096_S7x4096_d0

/-- The body's table of pair values is the contraction of the two augmented matrices into a zero table. -/
theorem pay5_eq (x0 : Vec Ideal S1x2048x3 .f32) (x1 : Vec Ideal S1x3x4096 .f32) :
    k0_pay5 (F := Ideal) x0 x1 =
      truncf .bf16 (matmul dot_S2048x7_S7x4096_S2048x4096_1_0_0_1_n_n none (lhsAug x0) (rhsAug x1)
        (constant (F := Ideal) S2048x4096 .f32 0x00000000#32)) bitsLt_bf16_f32 := rfl

/-! ## Reading the two concatenations: one statement per piece -/

section Pieces
variable (A : FVec Ideal S2048x3 .bf16) (B C : FVec Ideal S2048x1 .bf16) (E : FVec Ideal S2048x2 .bf16)
variable (A' : FVec Ideal S3x4096 .bf16) (B' : FVec Ideal S2x4096 .bf16) (C' E' : FVec Ideal S1x4096 .bf16)

/-- Columns 0, 1, 2 of the rows' matrix are the first piece. -/
theorem lhsCat_piece0 (r : Fin 2048) (c : Fin 3) (k : Fin 7) (hk : k.val = c.val) :
    concatenate S2048x7 1 [⟨S2048x3, A⟩, ⟨S2048x1, B⟩, ⟨S2048x1, C⟩, ⟨S2048x2, E⟩]
      concatenates_S2048x3_S2048x1_S2048x1_S2048x2_S2048x7_d1 (ix2 r k) = A (ix2 r c) := by
  refine concatenate_apply_piece (t := S2048x7) (1 : Fin 2) [⟨S2048x3, A⟩, ⟨S2048x1, B⟩, ⟨S2048x1, C⟩, ⟨S2048x2, E⟩]
    concatenates_S2048x3_S2048x1_S2048x1_S2048x2_S2048x7_d1 (ix2 r k)
    0 (by show 0 < 4; omega) S2048x3 A rfl rfl 0 rfl (ix2 r c) (fun b hb => ?_) ?_
  · match b with
    | ⟨0, _⟩ => rfl
    | ⟨1, _⟩ => exact absurd rfl hb
  · show 0 + c.val = k.val
    omega

/-- Column 3 of the rows' matrix is the second piece. -/
theorem lhsCat_piece1 (r : Fin 2048) (k : Fin 7) (hk : k.val = 3) :
    concatenate S2048x7 1 [⟨S2048x3, A⟩, ⟨S2048x1, B⟩, ⟨S2048x1, C⟩, ⟨S2048x2, E⟩]
      concatenates_S2048x3_S2048x1_S2048x1_S2048x2_S2048x7_d1 (ix2 r k) = B (ix2 r 0) := by
  refine concatenate_apply_piece (t := S2048x7) (1 : Fin 2) [⟨S2048x3, A⟩, ⟨S2048x1, B⟩, ⟨S2048x1, C⟩, ⟨S2048x2, E⟩]
    concatenates_S2048x3_S2048x1_S2048x1_S2048x2_S2048x7_d1 (ix2 r k)
    1 (by show 1 < 4; omega) S2048x1 B rfl rfl 3 rfl (ix2 r 0) (fun b hb => ?_) ?_
  · match b with
    | ⟨0, _⟩ => rfl
    | ⟨1, _⟩ => exact absurd rfl hb
  · show 3 + 0 = k.val
    omega

/-- Column 4 of the rows' matrix is the third piece. -/
theorem lhsCat_piece2 (r : Fin 2048) (k : Fin 7) (hk : k.val = 4) :
    concatenate S2048x7 1 [⟨S2048x3, A⟩, ⟨S2048x1, B⟩, ⟨S2048x1, C⟩, ⟨S2048x2, E⟩]
      concatenates_S2048x3_S2048x1_S2048x1_S2048x2_S2048x7_d1 (ix2 r k) = C (ix2 r 0) := by
  refine concatenate_apply_piece (t := S2048x7) (1 : Fin 2) [⟨S2048x3, A⟩, ⟨S2048x1, B⟩, ⟨S2048x1, C⟩, ⟨S2048x2, E⟩]
    concatenates_S2048x3_S2048x1_S2048x1_S2048x2_S2048x7_d1 (ix2 r k)
    2 (by show 2 < 4; omega) S2048x1 C rfl rfl 4 rfl (ix2 r 0) (fun b hb => ?_) ?_
  · match b with
    | ⟨0, _⟩ => rfl
    | ⟨1, _⟩ => exact absurd rfl hb
  · show 4 + 0 = k.val
    omega

/-- Columns 5 and 6 of the rows' matrix are the fourth piece. -/
theorem lhsCat_piece3 (r : Fin 2048) (c : Fin 2) (k : Fin 7) (hk : k.val = 5 + c.val) :
    concatenate S2048x7 1 [⟨S2048x3, A⟩, ⟨S2048x1, B⟩, ⟨S2048x1, C⟩, ⟨S2048x2, E⟩]
      concatenates_S2048x3_S2048x1_S2048x1_S2048x2_S2048x7_d1 (ix2 r k) = E (ix2 r c) := by
  refine concatenate_apply_piece (t := S2048x7) (1 : Fin 2) [⟨S2048x3, A⟩, ⟨S2048x1, B⟩, ⟨S2048x1, C⟩, ⟨S2048x2, E⟩]
    concatenates_S2048x3_S2048x1_S2048x1_S2048x2_S2048x7_d1 (ix2 r k)
    3 (by show 3 < 4; omega) S2048x2 E rfl rfl 5 rfl (ix2 r c) (fun b hb => ?_) ?_
  · match b with
    | ⟨0, _⟩ => rfl
    | ⟨1, _⟩ => exact absurd rfl hb
  · show 5 + c.val = k.val
    omega

/-- Rows 0, 1, 2 of the columns' matrix are the first piece. -/
theorem rhsCat_piece0 (mm : Fin 4096) (c : Fin 3) (k : Fin 7) (hk : k.val = c.val) :
    concatenate S7x4096 0 [⟨S3x4096, A'⟩, ⟨S2x4096, B'⟩, ⟨S1x4096, C'⟩, ⟨S1x4096, E'⟩]
      concatenates_S3x4096_S2x4096_S1x4096_S1x4096_S7x4096_d0 (ix2 k mm) = A' (ix2 c mm) := by
  refine concatenate_apply_piece (t := S7x4096) (0 : Fin 2) [⟨S3x4096, A'⟩, ⟨S2x4096, B'⟩, ⟨S1x4096, C'⟩, ⟨S1x4096, E'⟩]
    concatenates_S3x4096_S2x4096_S1x4096_S1x4096_S7x4096_d0 (ix2 k mm)
    0 (by show 0 < 4; omega) S3x4096 A' rfl rfl 0 rfl (ix2 c mm) (fun b hb => ?_) ?_
  · match b with
    | ⟨0, _⟩ => exact absurd rfl hb
    | ⟨1, _⟩ => rfl
  · show 0 + c.val = k.val
    omega

/-- Rows 3 and 4 of the columns' matrix are the second piece. -/
theorem rhsCat_piece1 (mm : Fin 4096) (c : Fin 2) (k : Fin 7) (hk : k.val = 3 + c.val) :
    concatenate S7x4096 0 [⟨S3x4096, A'⟩, ⟨S2x4096, B'⟩, ⟨S1x4096, C'⟩, ⟨S1x4096, E'⟩]
      concatenates_S3x4096_S2x4096_S1x4096_S1x4096_S7x4096_d0 (ix2 k mm) = B' (ix2 c mm) := by
  refine concatenate_apply_piece (t := S7x4096) (0 : Fin 2) [⟨S3x4096, A'⟩, ⟨S2x4096, B'⟩, ⟨S1x4096, C'⟩, ⟨S1x4096, E'⟩]
    concatenates_S3x4096_S2x4096_S1x4096_S1x4096_S7x4096_d0 (ix2 k mm)
    1 (by show 1 < 4; omega) S2x4096 B' rfl rfl 3 rfl (ix2 c mm) (fun b hb => ?_) ?_
  · match b with
    | ⟨0, _⟩ => exact absurd rfl hb
    | ⟨1, _⟩ => rfl
  · show 3 + c.val = k.val
    omega

/-- Row 5 of the columns' matrix is the third piece. -/
theorem rhsCat_piece2 (mm : Fin 4096) (k : Fin 7) (hk : k.val = 5) :
    concatenate S7x4096 0 [⟨S3x4096, A'⟩, ⟨S2x4096, B'⟩, ⟨S1x4096, C'⟩, ⟨S1x4096, E'⟩]
      concatenates_S3x4096_S2x4096_S1x4096_S1x4096_S7x4096_d0 (ix2 k mm) = C' (ix2 0 mm) := by
  refine concatenate_apply_piece (t := S7x4096) (0 : Fin 2) [⟨S3x4096, A'⟩, ⟨S2x4096, B'⟩, ⟨S1x4096, C'⟩, ⟨S1x4096, E'⟩]
    concatenates_S3x4096_S2x4096_S1x4096_S1x4096_S7x4096_d0 (ix2 k mm)
    2 (by show 2 < 4; omega) S1x4096 C' rfl rfl 5 rfl (ix2 0 mm) (fun b hb => ?_) ?_
  · match b with
    | ⟨0, _⟩ => exact absurd rfl hb
    | ⟨1, _⟩ => rfl
  · show 5 + 0 = k.val
    omega

/-- Row 6 of the columns' matrix is the fourth piece. -/
theorem rhsCat_piece3 (mm : Fin 4096) (k : Fin 7) (hk : k.val = 6) :
    concatenate S7x4096 0 [⟨S3x4096, A'⟩, ⟨S2x4096, B'⟩, ⟨S1x4096, C'⟩, ⟨S1x4096, E'⟩]
      concatenates_S3x4096_S2x4096_S1x4096_S1x4096_S7x4096_d0 (ix2 k mm) = E' (ix2 0 mm) := by
  refine concatenate_apply_piece (t := S7x4096) (0 : Fin 2) [⟨S3x4096, A'⟩, ⟨S2x4096, B'⟩, ⟨S1x4096, C'⟩, ⟨S1x4096, E'⟩]
    concatenates_S3x4096_S2x4096_S1x4096_S1x4096_S7x4096_d0 (ix2 k mm)
    3 (by show 3 < 4; omega) S1x4096 E' rfl rfl 6 rfl (ix2 0 mm) (fun b hb => ?_) ?_
  · match b with
    | ⟨0, _⟩ => exact absurd rfl hb
    | ⟨1, _⟩ => rfl
  · show 6 + 0 = k.val
    omega

end Pieces

/-! ## The entries of the two augmented matrices -/

/-- The rows' squared norms, kept as a column: entry `(r, u)` is `|p_r|²`. -/
theorem rowSqCol_apply (x0 : Vec Ideal S1x2048x3 .f32) (r : Fin 2048) (u : Fin 1) :
    shapeCast S2048x1
      (multiReduction (F := Ideal) .add [1] S2048
        (mulf (shapeCast S2048x3 x0 shapeCasts_S1x2048x3_S2048x3) (shapeCast S2048x3 x0 shapeCasts_S1x2048x3_S2048x3))
        0x00000000#32 reduces_S2048x3_S2048 (.inl rfl) rfl)
      shapeCasts_S2048_S2048x1 (ix2 r u) = sqn (rowPt x0 r) :=
  (ColumnLayout.shapeCast_a_a1_apply _ shapeCasts_S2048_S2048x1 r u).trans
    (rowSq_apply _ (rowPt x0 r) r (rowBlock_apply x0 r) (.inl rfl) rfl)

/-- The columns' squared norms, kept as a row: entry `(u, mm)` is `|q_mm|²`. -/
theorem colSqRow_apply (x1 : Vec Ideal S1x3x4096 .f32) (mm : Fin 4096) (u : Fin 1) :
    shapeCast S1x4096
      (multiReduction (F := Ideal) .add [0] S4096
        (mulf (shapeCast S3x4096 x1 shapeCasts_S1x3x4096_S3x4096) (shapeCast S3x4096 x1 shapeCasts_S1x3x4096_S3x4096))
        0x00000000#32 reduces_S3x4096_S4096 (.inl rfl) rfl)
      shapeCasts_S4096_S1x4096 (ix2 u mm) = sqn (colPt x1 mm) :=
  (shapeCast_a_1a_apply _ shapeCasts_S4096_S1x4096 u mm).trans
    (colSq_apply _ (colPt x1 mm) mm (fun c => colBlock_apply x1 c mm) (.inl rfl) rfl)

/-- Row `r` of the rows' matrix is the seven entries of the row point. -/
theorem lhs_apply (x0 : Vec Ideal S1x2048x3 .f32) (r : Fin 2048) (k : Fin 7) :
    lhsAug x0 (ix2 r k) = aug1 (rowPt x0 r) k := by
  have h2 : ∀ c : Fin 3, Ideal.ofBits .f32 0xC0000000#32 * shapeCast S2048x3 x0 shapeCasts_S1x2048x3_S2048x3 (ix2 r c)
      = (-2) * rowPt x0 r c := fun c => by rw [w_neg_two, rowBlock_apply]
  unfold lhsAug
  match k with
  | ⟨0, _⟩ => exact (lhsCat_piece0 _ _ _ _ r 0 _ rfl).trans (h2 0)
  | ⟨1, _⟩ => exact (lhsCat_piece0 _ _ _ _ r 1 _ rfl).trans (h2 1)
  | ⟨2, _⟩ => exact (lhsCat_piece0 _ _ _ _ r 2 _ rfl).trans (h2 2)
  | ⟨3, _⟩ => exact (lhsCat_piece1 _ _ _ _ r _ rfl).trans (rowSqCol_apply x0 r 0)
  | ⟨4, _⟩ =>
    exact (lhsCat_piece2 _ _ _ _ r _ rfl).trans
      (congrArg₂ (· - ·) (rowSqCol_apply x0 r 0) (rowSqCol_apply x0 r 0))
  | ⟨5, _⟩ => exact (lhsCat_piece3 _ _ _ _ r 0 _ rfl).trans w_one16
  | ⟨6, _⟩ => exact (lhsCat_piece3 _ _ _ _ r 1 _ rfl).trans w_one16

/-- Column `mm` of the columns' matrix is the seven entries of the column point. -/
theorem rhs_apply (x1 : Vec Ideal S1x3x4096 .f32) (mm : Fin 4096) (k : Fin 7) :
    rhsAug x1 (ix2 k mm) = aug2 (colPt x1 mm) k := by
  unfold rhsAug
  match k with
  | ⟨0, _⟩ => exact (rhsCat_piece0 _ _ _ _ mm 0 _ rfl).trans (colBlock_apply x1 0 mm)
  | ⟨1, _⟩ => exact (rhsCat_piece0 _ _ _ _ mm 1 _ rfl).trans (colBlock_apply x1 1 mm)
  | ⟨2, _⟩ => exact (rhsCat_piece0 _ _ _ _ mm 2 _ rfl).trans (colBlock_apply x1 2 mm)
  | ⟨3, _⟩ => exact (rhsCat_piece1 _ _ _ _ mm 0 _ rfl).trans w_one16
  | ⟨4, _⟩ => exact (rhsCat_piece1 _ _ _ _ mm 1 _ rfl).trans w_one16
  | ⟨5, _⟩ => exact (rhsCat_piece2 _ _ _ _ mm _ rfl).trans (colSqRow_apply x1 mm 0)
  | ⟨6, _⟩ =>
    exact (rhsCat_piece3 _ _ _ _ mm _ rfl).trans
      (congrArg₂ (· - ·) (colSqRow_apply x1 mm 0) (colSqRow_apply x1 mm 0))

/-! ## The contraction -/

/-- The output's row coordinate is the left operand's row. -/
theorem lhsIdx_row (i : S2048x4096.Idx) (q : dot_S2048x7_S7x4096_S2048x4096_1_0_0_1_n_n.contr.Idx) :
    (dot_S2048x7_S7x4096_S2048x4096_1_0_0_1_n_n.lhsIdx i q 0).val = (i 0).val := by
  unfold DotDims.lhsIdx
  rw [dif_neg (show ¬(0 : Fin S2048x7.rank) ∈ dot_S2048x7_S7x4096_S2048x4096_1_0_0_1_n_n.lhsBatch by decide),
    dif_pos (show (0 : Fin S2048x7.rank) ∈ dot_S2048x7_S7x4096_S2048x4096_1_0_0_1_n_n.lhsNonContracting by decide)]
  rfl

/-- The left operand's column is the contraction coordinate. -/
theorem lhsIdx_contr (i : S2048x4096.Idx) (q : dot_S2048x7_S7x4096_S2048x4096_1_0_0_1_n_n.contr.Idx) :
    (dot_S2048x7_S7x4096_S2048x4096_1_0_0_1_n_n.lhsIdx i q 1).val = (q ⟨0, by decide⟩).val :=
  dot_S2048x7_S7x4096_S2048x4096_1_0_0_1_n_n.lhsIdx_val_of_single rfl i q

/-- The right operand's row is the contraction coordinate. -/
theorem rhsIdx_contr (i : S2048x4096.Idx) (q : dot_S2048x7_S7x4096_S2048x4096_1_0_0_1_n_n.contr.Idx) :
    (dot_S2048x7_S7x4096_S2048x4096_1_0_0_1_n_n.rhsIdx i q 0).val = (q ⟨0, by decide⟩).val :=
  dot_S2048x7_S7x4096_S2048x4096_1_0_0_1_n_n.rhsIdx_val_of_single rfl i q

/-- The output's column coordinate is the right operand's column. -/
theorem rhsIdx_col (i : S2048x4096.Idx) (q : dot_S2048x7_S7x4096_S2048x4096_1_0_0_1_n_n.contr.Idx) :
    (dot_S2048x7_S7x4096_S2048x4096_1_0_0_1_n_n.rhsIdx i q 1).val = (i 1).val := by
  unfold DotDims.rhsIdx
  rw [dif_neg (show ¬(1 : Fin S7x4096.rank) ∈ dot_S2048x7_S7x4096_S2048x4096_1_0_0_1_n_n.rhsBatch by decide),
    dif_pos (show (1 : Fin S7x4096.rank) ∈ dot_S2048x7_S7x4096_S2048x4096_1_0_0_1_n_n.rhsNonContracting by decide)]
  rfl

/-- Entry `(r, mm)` of the body's table is the one contraction of the row point's and the column point's seven
    entries: the unclamped squared distance of the pair. -/
theorem pay5_apply (x0 : Vec Ideal S1x2048x3 .f32) (x1 : Vec Ideal S1x3x4096 .f32) (r : Fin 2048) (mm : Fin 4096) :
    k0_pay5 (F := Ideal) x0 x1 (ix2 r mm) = wdist (rowPt x0 r) (colPt x1 mm) := by
  rw [pay5_eq]
  show matmul dot_S2048x7_S7x4096_S2048x4096_1_0_0_1_n_n none (lhsAug x0) (rhsAug x1)
      (constant (F := Ideal) S2048x4096 .f32 0x00000000#32) (ix2 r mm) = _
  simp only [matmul]
  rw [Ideal.matmul_constant_zero_apply,
    ← Equiv.sum_comp (ValueIdx.contrEquiv1 dot_S2048x7_S7x4096_S2048x4096_1_0_0_1_n_n 7 rfl rfl).symm]
  unfold wdist
  refine Finset.sum_congr rfl fun k _ => ?_
  have hk := ValueIdx.contrEquiv1_symm_val dot_S2048x7_S7x4096_S2048x4096_1_0_0_1_n_n 7 rfl rfl k
  have el : dot_S2048x7_S7x4096_S2048x4096_1_0_0_1_n_n.lhsIdx (ix2 r mm)
      ((ValueIdx.contrEquiv1 dot_S2048x7_S7x4096_S2048x4096_1_0_0_1_n_n 7 rfl rfl).symm k) = ix2 r k :=
    funext fun a => Fin.ext (by
      match a with
      | ⟨0, _⟩ => exact lhsIdx_row _ _
      | ⟨1, _⟩ => exact (lhsIdx_contr _ _).trans hk)
  have er : dot_S2048x7_S7x4096_S2048x4096_1_0_0_1_n_n.rhsIdx (ix2 r mm)
      ((ValueIdx.contrEquiv1 dot_S2048x7_S7x4096_S2048x4096_1_0_0_1_n_n 7 rfl rfl).symm k) = ix2 k mm :=
    funext fun a => Fin.ext (by
      match a with
      | ⟨0, _⟩ => exact (rhsIdx_contr _ _).trans hk
      | ⟨1, _⟩ => exact rhsIdx_col _ _)
  rw [el, er, lhs_apply, rhs_apply]

/-! ## The minima along rows and along columns -/

/-- A minimum reduction over one axis, at exact arithmetic: the fold of `min` from the starting value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum of a table's row `r`, started from plus infinity. -/
theorem rowMin_apply (T : FVec Ideal S2048x4096 .bf16) (r : Fin 2048)
    (hφ : FKind.Formats .bf16) (hacc : (0x7F80#16 : BitVec 16) = FKind.minimumf.neutral .bf16 hφ) :
    multiReduction (F := Ideal) .minimumf [1] S2048 T 0x7F80#16 reduces_S2048x4096_S2048 hφ hacc (ix1 r)
      = (Finset.univ : Finset (Fin 4096)).fold min ⊤ (fun mm => T (ix2 r mm)) := by
  refine (multiReduction_minimumf_single T 0x7F80#16 reduces_S2048x4096_S2048 hφ hacc (ix1 r)).trans ?_
  show (Finset.univ : Finset (Fin 4096)).fold min (Ideal.ofBits .bf16 0x7F80#16)
      (fun mm : Fin 4096 => T (reduces_S2048x4096_S2048.lift (ix1 r) mm)) = _
  rw [w_top16]
  refine congrArg (fun f => (Finset.univ : Finset (Fin 4096)).fold min ⊤ f) (funext fun mm => ?_)
  exact congrArg T (funext fun a => Fin.ext (by match a with | ⟨0, _⟩ => rfl | ⟨1, _⟩ => rfl))

/-- The minimum of a table's column `mm`, started from plus infinity. -/
theorem colMin_apply (T : FVec Ideal S2048x4096 .bf16) (mm : Fin 4096)
    (hφ : FKind.Formats .bf16) (hacc : (0x7F80#16 : BitVec 16) = FKind.minimumf.neutral .bf16 hφ) :
    multiReduction (F := Ideal) .minimumf [0] S4096 T 0x7F80#16 reduces_S2048x4096_S4096 hφ hacc (ix1 mm)
      = (Finset.univ : Finset (Fin 2048)).fold min ⊤ (fun r => T (ix2 r mm)) := by
  refine (multiReduction_minimumf_single T 0x7F80#16 reduces_S2048x4096_S4096 hφ hacc (ix1 mm)).trans ?_
  show (Finset.univ : Finset (Fin 2048)).fold min (Ideal.ofBits .bf16 0x7F80#16)
      (fun r : Fin 2048 => T (reduces_S2048x4096_S4096.lift (ix1 mm) r)) = _
  rw [w_top16]
  refine congrArg (fun f => (Finset.univ : Finset (Fin 2048)).fold min ⊤ f) (funext fun r => ?_)
  exact congrArg T (funext fun a => Fin.ext (by match a with | ⟨0, _⟩ => rfl | ⟨1, _⟩ => rfl))

/-- Row `r`'s nearest unclamped squared distance over all column points, clamped at zero. -/
theorem pay6_apply (x0 : Vec Ideal S1x2048x3 .f32) (x1 : Vec Ideal S1x3x4096 .f32) (r : Fin 2048) :
    k0_pay6 (F := Ideal) x0 x1 (ix1 r)
      = max ((Finset.univ : Finset (Fin 4096)).fold min ⊤ (fun mm => wdist (rowPt x0 r) (colPt x1 mm))) 0 := by
  have h1 : extf (F := Ideal) .f32 (multiReduction (F := Ideal) .minimumf [1] S2048 (k0_pay5 (F := Ideal) x0 x1) 0x7F80#16
        reduces_S2048x4096_S2048 (.inr rfl) rfl) bitsLt_bf16_f32 (ix1 r)
      = (Finset.univ : Finset (Fin 4096)).fold min ⊤ (fun mm => wdist (rowPt x0 r) (colPt x1 mm)) :=
    (extf_apply _ bitsLt_bf16_f32 (ix1 r)).trans ((rowMin_apply (k0_pay5 (F := Ideal) x0 x1) r (.inr rfl) rfl).trans
      (congrArg (fun f => (Finset.univ : Finset (Fin 4096)).fold min ⊤ f) (funext fun mm => pay5_apply x0 x1 r mm)))
  have h2 : broadcast S2048 (Scalar.ofBits (F := Ideal) .f32 0x00000000#32) (ix1 r) = (0 : EReal) :=
    (broadcast_apply _ (ix1 r)).trans w_zero
  unfold k0_pay6
  exact (maximumf_apply _ _ (ix1 r)).trans (congrArg₂ (max : EReal → EReal → EReal) h1 h2)

/-- Column `mm`'s nearest unclamped squared distance over this block's row points. -/
theorem pay7_apply (x0 : Vec Ideal S1x2048x3 .f32) (x1 : Vec Ideal S1x3x4096 .f32) (mm : Fin 4096) :
    k0_pay7 (F := Ideal) x0 x1 (ix2 0 mm)
      = (Finset.univ : Finset (Fin 2048)).fold min ⊤ (fun r => wdist (rowPt x0 r) (colPt x1 mm)) := by
  unfold k0_pay7
  refine (shapeCast_a_1a_apply _ shapeCasts_S4096_S1x4096 0 mm).trans ?_
  refine (colMin_apply (k0_pay5 (F := Ideal) x0 x1) mm (.inr rfl) rfl).trans ?_
  exact congrArg (fun f => (Finset.univ : Finset (Fin 2048)).fold min ⊤ f)
    (funext fun r => pay5_apply x0 x1 r mm)

/-! ## The two means added to the running total -/

/-- The one index of a `1 × 1` vector. -/
theorem idx11_eq (i : S1x1.Idx) : i = ix2 0 0 :=
  funext fun a => Fin.ext (by
    match a with
    | ⟨0, _⟩ => exact Nat.lt_one_iff.mp (i 0).isLt
    | ⟨1, _⟩ => exact Nat.lt_one_iff.mp (i 1).isLt)

/-- The 2048 clamped row minima, summed: the vector is laid out as one row, summed along it, and the one sum read back. -/
theorem rowTotal_apply (v31 : FVec Ideal S2048 .f32)
    (hφ : FKind.Formats .f32) (hacc : (0x00000000#32 : BitVec 32) = FKind.add.neutral .f32 hφ) :
    extractAt ![0, 0]
      (shapeCast S1x1 (multiReduction (F := Ideal) .add [1] S1 (shapeCast S1x2048 v31 shapeCasts_S2048_S1x2048)
        0x00000000#32 reduces_S1x2048_S1 hφ hacc) shapeCasts_S1_S1x1) inpos_S1x1_p0_0
      = ∑ r : Fin 2048, v31 (ix1 r) := by
  unfold extractAt
  have e : (fun a => ⟨(![0, 0] : Fin 2 → ℕ) a, inpos_S1x1_p0_0 a⟩ : S1x1.Idx) = ix2 0 0 :=
    funext fun a => Fin.ext (by match a with | ⟨0, _⟩ => rfl | ⟨1, _⟩ => rfl)
  refine (congrArg _ e).trans ?_
  refine (ColumnLayout.shapeCast_a_a1_apply _ shapeCasts_S1_S1x1 0 0).trans ?_
  refine (Ideal.multiReduction_add_single _ 0x00000000#32 reduces_S1x2048_S1 hφ hacc (ix1 0)).trans ?_
  show ∑ k : Fin 2048, shapeCast S1x2048 v31 shapeCasts_S2048_S1x2048 (reduces_S1x2048_S1.lift (ix1 0) k)
      = ∑ r : Fin 2048, v31 (ix1 r)
  refine Finset.sum_congr rfl fun (k : Fin 2048) _ => ?_
  have e2 : reduces_S1x2048_S1.lift (ix1 0) k = ix2 0 k :=
    funext fun a => Fin.ext (by match a with | ⟨0, _⟩ => rfl | ⟨1, _⟩ => rfl)
  rw [e2]
  exact shapeCast_a_1a_apply v31 shapeCasts_S2048_S1x2048 0 k

/-- The running total plus the mean's share of this block's clamped row minima. -/
theorem pay3_eq (v31 : FVec Ideal S2048 .f32) (v45 : Vec Ideal S1x1 .f32) :
    k0_pay3 (F := Ideal) v31 v45 = fun _ => v45 (ix2 0 0) + (∑ r : Fin 2048, v31 (ix1 r)) * inv4096 := by
  funext i
  unfold k0_pay3
  refine (addf_apply _ _ i).trans ?_
  refine (congrArg₂ (· + ·) (congrFun (shapeCast_self v45 shapeCasts_S1x1_S1x1) i)
    ((mulf_apply _ _ i).trans (congrArg₂ (· * ·)
      ((broadcast_apply _ i).trans (rowTotal_apply v31 (.inl rfl) rfl))
      ((broadcast_apply _ i).trans w_inv4096)))).trans ?_
  rw [idx11_eq i]

/-- A `1 × 1 × 4096` index is its last coordinate. -/
def lastEquiv : Fin 4096 ≃ S1x1x4096.Idx where
  toFun mm := ix3 0 0 mm
  invFun i := i 2
  left_inv _ := rfl
  right_inv i := funext fun a => Fin.ext (by
    match a with
    | ⟨0, _⟩ => exact (Nat.lt_one_iff.mp (i 0).isLt).symm
    | ⟨1, _⟩ => exact (Nat.lt_one_iff.mp (i 1).isLt).symm
    | ⟨2, _⟩ => rfl)

/-- The 4096 clamped column minima, summed: the row is laid out as a `1 × 1 × 4096` block, summed over its two last
    axes, and the one sum read back. -/
theorem colTotal_apply (w : FVec Ideal S1x4096 .f32)
    (hφ : FKind.Formats .f32) (hacc : (0x00000000#32 : BitVec 32) = FKind.add.neutral .f32 hφ) :
    extractAt ![0, 0, 0]
      (shapeCast S1x1x1 (multiReduction (F := Ideal) .add [1, 2] S1 (shapeCast S1x1x4096 w shapeCasts_S1x4096_S1x1x4096)
        0x00000000#32 reduces_S1x1x4096_S1 hφ hacc) shapeCasts_S1_S1x1x1) inpos_S1x1x1_p0_0_0
      = ∑ mm : Fin 4096, w (ix2 0 mm) := by
  unfold extractAt
  refine (shapeCast_apply _ shapeCasts_S1_S1x1x1 _ (ix1 0) (by
    rw [Shape.rowMajor_val_three, Shape.rowMajor_val_one]; rfl)).trans ?_
  refine (Ideal.multiReduction_add_total _ 0x00000000#32 reduces_S1x1x4096_S1 (fun b => by
    match b with | ⟨0, _⟩ => rfl) hφ hacc (ix1 0)).trans ?_
  rw [← Equiv.sum_comp lastEquiv]
  refine Finset.sum_congr rfl fun mm _ => ?_
  exact shapeCast_ab_1ab_apply w shapeCasts_S1x4096_S1x1x4096 0 0 mm

/-- The running total plus the mean's share of the clamped column minima. -/
theorem pay4_eq (v59 : Vec Ideal S1x4096 .bf16) (v63 : Vec Ideal S1x1 .f32) :
    k0_pay4 (F := Ideal) v59 v63
      = fun _ => v63 (ix2 0 0) + (∑ mm : Fin 4096, max (v59 (ix2 0 mm)) 0) * inv4096 := by
  funext i
  unfold k0_pay4
  refine (addf_apply _ _ i).trans ?_
  refine (congrArg₂ (· + ·) (congrFun (shapeCast_self v63 shapeCasts_S1x1_S1x1) i)
    ((mulf_apply _ _ i).trans (congrArg₂ (· * ·)
      ((broadcast_apply _ i).trans (colTotal_apply _ (.inl rfl) rfl))
      ((broadcast_apply _ i).trans w_inv4096)))).trans ?_
  rw [idx11_eq i]
  refine congrArg (fun z => v63 (ix2 0 0) + z * inv4096) (Finset.sum_congr rfl fun mm _ => ?_)
  refine (maximumf_apply _ _ (ix2 0 mm)).trans ?_
  exact congrArg₂ (max : EReal → EReal → EReal) (extf_apply v59 _ (ix2 0 mm)) ((broadcast_apply _ (ix2 0 mm)).trans w_zero)

end Cert.Chamfer

end
-- ==== Proof.Accum.lean ====
import proofs.«170437_g37056977829910_cont_8to1_b_94_13_alg».proof.Proof.State
import proofs.«170437_g37056977829910_cont_8to1_b_94_13_alg».proof.Proof.Pieces
import proofs.«170437_g37056977829910_cont_8to1_b_94_13_alg».proof.Proof.Blocks
import proofs.«170437_g37056977829910_cont_8to1_b_94_13_alg».proof.Proof.Payload

set_option maxRecDepth 16384

noncomputable section

open Idealize.ShloMosaic Idealize.ShloMosaic.TcCoe Idealize.SL.Sem
open Idealize.ShloMosaic.Pipeline (Dat)

/-!
  The induction over the grid: after every point the output block holds the running total and the scratch row
  the running column minima, as the specification writes them.

  A point of batch `b`, half `i` sees rows `rowOf i r` of the first cloud and the whole batch of the second. Its row
  minima, clamped, are `rowNear`, so its share of the total is `halfSum b i / 4096`; its column minima are `colNear b i`.
  The first half adds its share and restarts the scratch row; the second half joins its column minima into the row,
  adds its share, and adds the share of the joined row clamped, `colSum b / 4096`.
-/

namespace Cert.Chamfer

open Cert.KernelIdeal Cert.KernelIdeal.Gen Idealize.ShloMosaic.ValueIdx

/-- An index of a one-row matrix is its column. -/
theorem row_idx (j : (⟨2, ![1, 4096]⟩ : Shape).Idx) : j = ix2 (0 : Fin 1) (j 1) :=
  funext fun a => match a with
    | ⟨0, h⟩ => Fin.ext (by
        have h1 : (j ⟨0, h⟩).val < 1 := (j ⟨0, h⟩).isLt
        show (j ⟨0, h⟩).val = 0
        omega)
    | ⟨1, _⟩ => rfl

section OnePoint

variable (x0 : Vec Ideal S1x2048x3 .f32) (x1 : Vec Ideal S1x3x4096 .f32) (x y : Cloud) (b : Fin 4) (i : Fin 2)
  (hR : ∀ r, rowPt x0 r = x b (rowOf i r)) (hC : ∀ j, colPt x1 j = y b j)

include hR hC

/-- The point's clamped row minima are the specification's. -/
theorem row_min_eq (r : Fin 2048) : k0_pay6 (F := Ideal) x0 x1 (ix1 r) = rowNear x y b (rowOf i r) := by
  rw [pay6_apply]; unfold rowNear; simp only [hR, hC]

/-- The point's column minima are the specification's. -/
theorem col_min_eq (j : Fin 4096) : k0_pay7 (F := Ideal) x0 x1 (ix2 0 j) = colNear x y b i j := by
  rw [pay7_apply]; unfold colNear; simp only [hR, hC]

/-- The point adds its rows' share to the total it found. -/
theorem rows_share (xo2 : Vec Ideal S1x1 .f32) :
    k0_pay3 (F := Ideal) (k0_pay6 x0 x1) xo2 = fun _ => xo2 (ix2 0 0) + halfSum x y b i * inv4096 := by
  rw [pay3_eq]; unfold halfSum; simp only [row_min_eq x0 x1 x y b i hR hC]

/-- The scratch row restarted at the point's column minima. -/
theorem scratch_restart : k0_pay1 (F := Ideal) (k0_pay7 x0 x1) = fun j => colNear x y b i (j 1) := by
  rw [pay1_eq]
  funext j
  rw [row_idx j]
  exact col_min_eq x0 x1 x y b i hR hC (j 1)

/-- The scratch row joined with the point's column minima. -/
theorem scratch_join (xs0 : Vec Ideal S1x4096 .bf16) (g : Fin 4096 → EReal) (hS : xs0 = fun j => g (j 1)) :
    k0_pay2 (F := Ideal) (k0_pay7 x0 x1) xs0 = fun j => min (g (j 1)) (colNear x y b i (j 1)) := by
  funext j
  obtain ⟨q, rfl⟩ : ∃ q : Fin 4096, j = ix2 (0 : Fin 1) q := ⟨j 1, row_idx j⟩
  rw [pay2_apply, col_min_eq x0 x1 x y b i hR hC, hS]

/-- The closing point: the rows' share and then the joined, clamped column minima's share. -/
theorem close_total (xo2 : Vec Ideal S1x1 .f32) (xs0 : Vec Ideal S1x4096 .bf16) (g : Fin 4096 → EReal)
    (hS : xs0 = fun j => g (j 1)) :
    k0_pay4 (F := Ideal) (k0_pay2 (k0_pay7 x0 x1) xs0) (k0_pay3 (k0_pay6 x0 x1) xo2)
      = fun _ => (xo2 (ix2 0 0) + halfSum x y b i * inv4096)
          + (∑ j : Fin 4096, max (min (g j) (colNear x y b i j)) 0) * inv4096 := by
  rw [pay4_eq, rows_share x0 x1 x y b i hR hC, scratch_join x0 x1 x y b i hR hC xs0 g hS]

end OnePoint

variable (m : (ℓ : Loc nD τ sig) → Buf (Elt Ideal) ℓ)

/-- Row `r` of the point's first block is point `rowOf half r` of the batch in the first cloud. -/
theorem rows_of_block (c : Dev nD) (t : Fin cfg0.N) (r : Fin 2048) :
    rowPt (iblk m c 0 t) r = cloud1 m c (batchOf t) (rowOf (halfOf t) r) :=
  funext fun k => block_first m c t r k

/-- Column `j` of the point's second block is point `j` of the batch in the second cloud. -/
theorem cols_of_block (c : Dev nD) (t : Fin cfg0.N) (j : Fin 4096) :
    colPt (iblk m c 1 t) j = cloud2 m c (batchOf t) j :=
  funext fun k => block_second m c t k j

theorem batchOf_eq (n : ℕ) (hn : n < cfg0.N) : batchOf ⟨n, hn⟩ = bat (n / 2) := by
  have hN : cfg0.N = 8 := N_0
  apply Fin.ext
  show n / 2 = n / 2 % 4
  omega

theorem halfOf_even (n : ℕ) (hn : n < cfg0.N) (h : n % 2 = 0) : halfOf ⟨n, hn⟩ = 0 := Fin.ext h
theorem halfOf_odd (n : ℕ) (hn : n < cfg0.N) (h : n % 2 = 1) : halfOf ⟨n, hn⟩ = 1 := Fin.ext h

/-- After every grid point the output block holds the running total and the scratch row the running column minima. -/
theorem outs_eq (c : Dev nD) : ∀ (n : ℕ) (hn : n < cfg0.N),
    outsAt0 m c n hn = ((fun _ => totalAt (cloud1 m c) (cloud2 m c) n : Vec Ideal S1x1 .f32),
      (fun j => scratchAt (cloud1 m c) (cloud2 m c) n (j 1) : Vec Ideal S1x4096 .bf16))
  | 0, hn => by
    rw [outsAt0_A m c ⟨0, hn⟩ rfl rfl (by dsimp only; omega) (by dsimp only; omega)]
    rw [total_first, scratch_first]
    rw [rows_share (iblk m c 0 ⟨0, hn⟩) (iblk m c 1 ⟨0, hn⟩) (cloud1 m c) (cloud2 m c) (batchOf ⟨0, hn⟩) (halfOf ⟨0, hn⟩)
          (rows_of_block m c ⟨0, hn⟩) (cols_of_block m c ⟨0, hn⟩),
      scratch_restart (iblk m c 0 ⟨0, hn⟩) (iblk m c 1 ⟨0, hn⟩) (cloud1 m c) (cloud2 m c) (batchOf ⟨0, hn⟩) (halfOf ⟨0, hn⟩)
          (rows_of_block m c ⟨0, hn⟩) (cols_of_block m c ⟨0, hn⟩),
      pay8_eq, batchOf_eq 0 hn, halfOf_even 0 hn rfl]
    rfl
  | n + 1, hn => by
    have hN : cfg0.N = 8 := N_0
    have hn' : n < cfg0.N := Nat.lt_of_succ_lt hn
    have ih := outs_eq c n hn'
    by_cases hpar : (n + 1) % 2 = 0
    · -- a point that opens a batch
      have h0 : ¬(⟨n + 1, hn⟩ : Fin cfg0.N).val % 8 = 0 := by dsimp only; omega
      have h2 : ¬(⟨n + 1, hn⟩ : Fin cfg0.N).val % 2 = 1 := by dsimp only; omega
      have e := outsAt0_C m c ⟨n + 1, hn⟩ h0 hpar h2 h2
      rw [total_open, scratch_open] at e
      have e' : outsAt0 m c (n + 1) hn = (k0_pay3 (k0_pay6 (iblk m c 0 ⟨n + 1, hn⟩) (iblk m c 1 ⟨n + 1, hn⟩)) (outsAt0 m c n hn').1,
          k0_pay1 (k0_pay7 (iblk m c 0 ⟨n + 1, hn⟩) (iblk m c 1 ⟨n + 1, hn⟩))) := e
      rw [e', ih]
      rw [rows_share (iblk m c 0 ⟨n + 1, hn⟩) (iblk m c 1 ⟨n + 1, hn⟩) (cloud1 m c) (cloud2 m c) (batchOf ⟨n + 1, hn⟩) (halfOf ⟨n + 1, hn⟩)
          (rows_of_block m c ⟨n + 1, hn⟩) (cols_of_block m c ⟨n + 1, hn⟩),
        scratch_restart (iblk m c 0 ⟨n + 1, hn⟩) (iblk m c 1 ⟨n + 1, hn⟩) (cloud1 m c) (cloud2 m c) (batchOf ⟨n + 1, hn⟩) (halfOf ⟨n + 1, hn⟩)
          (rows_of_block m c ⟨n + 1, hn⟩) (cols_of_block m c ⟨n + 1, hn⟩),
        batchOf_eq (n + 1) hn, halfOf_even (n + 1) hn hpar]
      have hdiv : (n + 1) / 2 = n / 2 + 1 := by omega
      unfold totalAt scratchAt
      simp only [if_pos hpar, if_neg (show ¬ n % 2 = 0 by omega), hdiv]
    · -- a point that closes a batch
      have hodd : (n + 1) % 2 = 1 := by omega
      have h0 : ¬(⟨n + 1, hn⟩ : Fin cfg0.N).val % 8 = 0 := by dsimp only; omega
      have e := outsAt0_B m c ⟨n + 1, hn⟩ h0 hpar hodd hodd
      rw [total_close, scratch_close] at e
      have e' : outsAt0 m c (n + 1) hn
          = (k0_pay4 (k0_pay2 (k0_pay7 (iblk m c 0 ⟨n + 1, hn⟩) (iblk m c 1 ⟨n + 1, hn⟩)) (outsAt0 m c n hn').2) (k0_pay3 (k0_pay6 (iblk m c 0 ⟨n + 1, hn⟩) (iblk m c 1 ⟨n + 1, hn⟩)) (outsAt0 m c n hn').1),
            k0_pay2 (k0_pay7 (iblk m c 0 ⟨n + 1, hn⟩) (iblk m c 1 ⟨n + 1, hn⟩)) (outsAt0 m c n hn').2) := e
      rw [e', ih]
      rw [close_total (iblk m c 0 ⟨n + 1, hn⟩) (iblk m c 1 ⟨n + 1, hn⟩) (cloud1 m c) (cloud2 m c) (batchOf ⟨n + 1, hn⟩) (halfOf ⟨n + 1, hn⟩)
          (rows_of_block m c ⟨n + 1, hn⟩) (cols_of_block m c ⟨n + 1, hn⟩) _ _ (scratchAt (cloud1 m c) (cloud2 m c) n) rfl,
        scratch_join (iblk m c 0 ⟨n + 1, hn⟩) (iblk m c 1 ⟨n + 1, hn⟩) (cloud1 m c) (cloud2 m c) (batchOf ⟨n + 1, hn⟩) (halfOf ⟨n + 1, hn⟩)
          (rows_of_block m c ⟨n + 1, hn⟩) (cols_of_block m c ⟨n + 1, hn⟩) _ (scratchAt (cloud1 m c) (cloud2 m c) n) rfl,
        batchOf_eq (n + 1) hn, halfOf_odd (n + 1) hn hodd]
      have heven : n % 2 = 0 := by omega
      have hdiv : (n + 1) / 2 = n / 2 := by omega
      unfold totalAt scratchAt
      simp only [if_neg hpar, if_pos heven, hdiv, wholeBatches, step, colSum]

end Cert.Chamfer
end
-- ==== Proof.KernelRun.lean ====
import proofs.«170437_g37056977829910_cont_8to1_b_94_13_alg».proof.Proof.Accum
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

/-!
  The kernel's run, read: its scalar result is the accumulated total of the specification.

  The output block never moves and is written back once, after the last of the eight grid points, when it holds the
  total after four whole batches; the one-element result array is then reshaped to a scalar.
-/

namespace Cert.Chamfer

open Cert.KernelIdeal Cert.KernelIdeal.Gen Idealize.ShloMosaic.ValueIdx

variable (m : (ℓ : Loc nD τ sig) → Buf (Elt Ideal) ℓ) (ρ : Dev nD → PrngReg)

/-- The one-element result array at the accumulated total. -/
abbrev resultBlock (c : Dev nD) : Buf (Elt Ideal) ((c : Thread nD τ).loc main_v1) :=
  fun _ => total (cloud1 m c) (cloud2 m c)

/-- The one write-back, after the last point, writes the accumulated total. -/
theorem flushed_eq (c : Dev nD) (t : Fin cfg0.N) (hf : (cfg0.win 2).flush t = true) :
    (dats m 0 c).flushed 2 t = ((cfg0.win 2).blk t).view.read (Elt Ideal) (resultBlock m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2, outs_eq]
  funext y
  rw [View.read_apply]
  show totalAt (cloud1 m c) (cloud2 m c) 7 = total (cloud1 m c) (cloud2 m c)
  exact totalAt_seven _ _

/-- So the result array ends holding the accumulated total: the last point's block is the whole array. -/
theorem final_block (c : Dev nD) : (dats m 0 c).arrAt 2 cfg0.N = resultBlock m c :=
  (dats m 0 c).arrAt_eq_of_cover 2 (resultBlock m c) (flushed_eq m c) fun i =>
    ⟨t0_7, (flush0_2 t0_7).mpr rfl, by
      show i ∈ ((View.whole main_v1).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- The scalar the program returns: the reshape of the result array, that is, the accumulated total. -/
theorem tail_result (c : Dev nD) :
    Pipeline.afterTail₀ cfgs (dats m) 0 (V0 m) [hostOps1] c main_v2 = fun _ => total (cloud1 m c) (cloud2 m c) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = resultBlock m c :=
    (Pipeline.withArrays_arr spec0 launch0.win.arr_inj c _ _ 2).trans (final_block m c)
  rw [e]
  rfl

/-- The run, read: the scalar result at the accumulated total, the two argument arrays unchanged. -/
theorem run : θ_run defs (onTc (τ := τ) (main (F := Ideal))) ⟨m, fun _ => 0, ρ⟩ fun r => ∀ c : Dev nD,
      r.2.mem ((c.tc : Thread nD τ).loc main_v2) = (fun _ => total (cloud1 m c) (cloud2 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Chamfer
end
-- ==== Proof.RefValue.lean ====
/-
  The reference program, read one operation at a time, computes the Chamfer distance of the specification:
  its clamped pairwise squared distances are `dist`, its two minimum reductions are `near1` and `near2`,
  the two means divide by 4096, and the last sum runs over the batch.
-/
import proofs.«170437_g37056977829910_cont_8to1_b_94_13_alg».proof.Proof.Gen.ReferenceIdeal.Read
import proofs.«170437_g37056977829910_cont_8to1_b_94_13_alg».proof.Proof.Spec
import proofs.«170437_g37056977829910_cont_8to1_b_94_13_alg».proof.Proof.Consts
import Idealize.ShloMosaic.Lib.ValueIdx
import Idealize.ShloMosaic.PureOps.Ideal.Laws

noncomputable section

namespace Cert.Chamfer

open Idealize.ShloMosaic Idealize.ShloMosaic.ValueIdx
open Cert.ReferenceIdeal Cert.ReferenceIdeal.Gen Cert.ReferenceIdeal.Read

/-- An array of shape 4 × 4096 × 3 read as a batch of clouds: entry (b, n, c) is coordinate c of point n of batch b. -/
def cloudOf (a : Cert.ReferenceIdeal.S4x4096x3.Idx → EReal) : Cloud := fun b n c => a (ix3 b n c)

/-- Entry (b, n, m) of the clamped pairwise array is the squared distance between point n of the first cloud's
    batch b and point m of the second's: the two squared norms start from zero, the inner product is doubled. -/
theorem ref_pair_eq (a0 a1 : (⟨S4x4096x3, .f32⟩ : BufTy).Contents (Elt Ideal)) (b : Fin 4) (n m : Fin 4096) :
    val_main_v14 (F := Ideal) a0 a1 (ix3 b n m) = dist (cloudOf a0 b n) (cloudOf a1 b m) := by
  rw [val_main_v14_apply, val_main_v12_apply, val_main_v9_apply, val_main_v7_apply, val_main_v5_apply,
    val_main_v1_apply, val_main_v8_apply, val_main_v6_apply, val_main_v3_apply, val_main_v11_apply,
    val_main_v10_apply, val_main_v4_apply, val_main_v13_apply]
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  simp only [e1, e2, e3, e4, val_main_v0_apply, val_main_v2_apply, val_main_cst_apply, val_main_cst_0_apply,
    val_main_cst_1_apply, val_main_cst_2_apply, Ideal.ofBits_def, Ideal.addf_def, Ideal.subf_def, Ideal.mulf_def,
    Ideal.maximumf_def, w_zero, w_two, zero_add]
  rfl

/-- The minimum along the last axis, started from plus infinity, is the nearest-neighbour distance of a point of the
    first cloud: the index over (b, n) with m inserted on the reduced axis is (b, n, m). -/
theorem ref_near1_eq (a0 a1 : (⟨S4x4096x3, .f32⟩ : BufTy).Contents (Elt Ideal)) (b : Fin 4) (n : Fin 4096) :
    val_main_v15 (F := Ideal) a0 a1 (ix2 b n) = near1 (cloudOf a0) (cloudOf a1) b n := by
  unfold val_main_v15
  have hr : S4x4096x4096.Reduces [(2 : Fin S4x4096x4096.rank)] S4x4096 := by decide
  rw [Host.reduce_eq_fold_single FloatOps.minimumf _ _ reducesTo_S4x4096x4096_S4x4096_d2 hr h_S_]
  have hl : ∀ k : Fin 4096, hr.lift (ix2 b n) k = ix3 b n k := fun k =>
    funext fun a => Fin.ext (by match a with | ⟨0, _⟩ => rfl | ⟨1, _⟩ => rfl | ⟨2, _⟩ => rfl)
  show (Finset.univ : Finset (Fin 4096)).fold min (val_main_cst_3 (F := Ideal) (Shape.Idx.first h_S_))
      (fun k => val_main_v14 (F := Ideal) a0 a1 (hr.lift (ix2 b n) k)) = _
  rw [val_main_cst_3_apply, Ideal.ofBits_def, w_top32]
  unfold near1
  exact Finset.fold_congr (fun (k : Fin 4096) _ => by rw [hl k, ref_pair_eq])

/-- The minimum along the middle axis is the nearest-neighbour distance of a point of the second cloud: the index
    over (b, m) with n inserted on the reduced axis is (b, n, m). -/
theorem ref_near2_eq (a0 a1 : (⟨S4x4096x3, .f32⟩ : BufTy).Contents (Elt Ideal)) (b : Fin 4) (n : Fin 4096) :
    val_main_v16 (F := Ideal) a0 a1 (ix2 b n) = near2 (cloudOf a0) (cloudOf a1) b n := by
  unfold val_main_v16
  have hr : S4x4096x4096.Reduces [(1 : Fin S4x4096x4096.rank)] S4x4096 := by decide
  rw [Host.reduce_eq_fold_single FloatOps.minimumf _ _ reducesTo_S4x4096x4096_S4x4096_d1 hr h_S_]
  have hl : ∀ k : Fin 4096, hr.lift (ix2 b n) k = ix3 b k n := fun k =>
    funext fun a => Fin.ext (by match a with | ⟨0, _⟩ => rfl | ⟨1, _⟩ => rfl | ⟨2, _⟩ => rfl)
  show (Finset.univ : Finset (Fin 4096)).fold min (val_main_cst_4 (F := Ideal) (Shape.Idx.first h_S_))
      (fun k => val_main_v14 (F := Ideal) a0 a1 (hr.lift (ix2 b n) k)) = _
  rw [val_main_cst_4_apply, Ideal.ofBits_def, w_top32]
  unfold near2
  exact Finset.fold_congr (fun (k : Fin 4096) _ => by rw [hl k, ref_pair_eq])

/-- Dividing by the literal 4096 is multiplying by 1/4096. -/
theorem ref_div4096 (x : EReal) : Ideal.div x (Ideal.ofBits .f32 0x45800000#32) = x * inv4096 := by
  rw [w_4096, Ideal.div_coe (by norm_num)]; rfl

/-- The first mean: the sum over the points of the first cloud, from zero, divided by 4096. -/
theorem ref_mean1_eq (a0 a1 : (⟨S4x4096x3, .f32⟩ : BufTy).Contents (Elt Ideal)) (b : Fin 4) :
    val_main_v19 (F := Ideal) a0 a1 (ix1 b) = (∑ n : Fin 4096, near1 (cloudOf a0) (cloudOf a1) b n) * inv4096 := by
  rw [val_main_v19_apply, val_main_v17_apply, val_main_v18_apply, val_main_cst_5_apply, val_main_cst_6_apply,
    Ideal.hostDivf_def, Ideal.ofBits_def, Ideal.ofBits_def, w_zero, zero_add, ref_div4096]
  refine congrArg (· * inv4096) (Finset.sum_congr rfl fun k _ => ?_)
  have e : idx_main_v17 (ix1 b) k = ix2 b k :=
    funext fun a => Fin.ext (by match a with | ⟨0, _⟩ => rfl | ⟨1, _⟩ => rfl)
  rw [e, ref_near1_eq]

/-- The second mean: the sum over the points of the second cloud, from zero, divided by 4096. -/
theorem ref_mean2_eq (a0 a1 : (⟨S4x4096x3, .f32⟩ : BufTy).Contents (Elt Ideal)) (b : Fin 4) :
    val_main_v22 (F := Ideal) a0 a1 (ix1 b) = (∑ n : Fin 4096, near2 (cloudOf a0) (cloudOf a1) b n) * inv4096 := by
  rw [val_main_v22_apply, val_main_v20_apply, val_main_v21_apply, val_main_cst_7_apply, val_main_cst_8_apply,
    Ideal.hostDivf_def, Ideal.ofBits_def, Ideal.ofBits_def, w_zero, zero_add, ref_div4096]
  refine congrArg (· * inv4096) (Finset.sum_congr rfl fun k _ => ?_)
  have e : idx_main_v20 (ix1 b) k = ix2 b k :=
    funext fun a => Fin.ext (by match a with | ⟨0, _⟩ => rfl | ⟨1, _⟩ => rfl)
  rw [e, ref_near2_eq]

/-- A rank-one index set of extent 4 is `Fin 4`. -/
def refBatchEquiv : S4.Idx ≃ Fin 4 where
  toFun j := j 0
  invFun := ix1
  left_inv j := (eq_ix1 j).symm
  right_inv _ := rfl

/-- The last stage sums the two means over the batch, from zero: the Chamfer distance of the two arrays read as clouds. -/
theorem ref_eq_chamfer (a0 a1 : (⟨S4x4096x3, .f32⟩ : BufTy).Contents (Elt Ideal)) :
    val_main_v24 (F := Ideal) a0 a1 = fun _ => chamfer (cloudOf a0) (cloudOf a1) := by
  funext i
  rw [val_main_v24_apply, val_main_cst_9_apply, Ideal.ofBits_def, w_zero, zero_add]
  unfold chamfer
  rw [← Equiv.sum_comp refBatchEquiv.symm]
  refine Finset.sum_congr rfl fun b _ => ?_
  show val_main_v23 (F := Ideal) a0 a1 (ix1 b) = _
  rw [val_main_v23_apply, Ideal.addf_def, ref_mean1_eq, ref_mean2_eq]

end Cert.Chamfer

end
-- ==== Proof.FiniteInputs.lean ====
/-
  The precondition says every entry of the two input arrays has absolute value below plus infinity; on the
  extended reals that makes every entry a real number.
-/
import proofs.«170437_g37056977829910_cont_8to1_b_94_13_alg».proof.Pre_finite_inputs
import proofs.«170437_g37056977829910_cont_8to1_b_94_13_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Chamfer

open Idealize.ShloMosaic Idealize.ShloMosaic.ValueIdx

/-- An extended real whose absolute value is strictly below plus infinity is a real number: minus infinity has
    absolute value plus infinity, and so has plus infinity. -/
theorem real_of_abs_lt_top (x : EReal) (h : max x (-x) < ⊤) : ∃ r : ℝ, x = (r : EReal) := by
  induction x using EReal.rec with
  | bot => simp at h
  | coe r => exact ⟨r, rfl⟩
  | top => simp at h

/-- The ordered comparison "absolute value below the infinity literal", answered one, at one entry. -/
theorem real_of_cmp_one (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have ht : Ideal.ofBits .f32 0x7F800000#32 = ⊤ := by simp [Ideal.ofBits, Ideal.ieee]
  rw [Ideal.cmpf_def, Ideal.hostAbsf_def, Ideal.absf_def, Ideal.ofBits_def, ht] at h
  refine real_of_abs_lt_top x ?_
  by_contra hn
  have h0 : Ideal.cmp .olt (max x (-x)) ⊤ = 0#1 := by simp [Ideal.cmp, hn]
  rw [h0] at h
  exact absurd h (by decide)

/-- The scalar shape has exactly one index. -/
instance finiteInputs_scalarIdx_subsingleton : Subsingleton Cert.Pre_finite_inputs.S_.Idx := ⟨fun a b => funext fun d => d.elim0⟩

/-- Both conjuncts of the precondition are "all entries compare below plus infinity": each all-reduction answering one
    makes every comparison one, and each comparison makes its entry real. -/
theorem real_of_pre [Cert.Pre_finite_inputs.Facts]
    (a0 a1 : FVec Ideal Cert.Pre_finite_inputs.S4x4096x3 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨h1, h2⟩ := IntOp.andi_eq_one.1 h0
  refine ⟨fun i => ?_, fun i => ?_⟩
  · have e := Host.reduce_andi_all _ _ _ _ ix0 h1 i
    rw [cmpf_apply, broadcastInDim_apply _ _ _ i ix0 (fun a => a.elim0)] at e
    exact real_of_cmp_one (a0 i) e
  · have e := Host.reduce_andi_all _ _ _ _ ix0 h2 i
    rw [cmpf_apply, broadcastInDim_apply _ _ _ i ix0 (fun a => a.elim0)] at e
    exact real_of_cmp_one (a1 i) e

end Cert.Chamfer

end
-- ==== Proof.Algebra.lean ====
/-
  The accumulated total equals the Chamfer distance, as a statement about extended reals.

  Three facts carry the argument. First, for points with real coordinates the seven-term contraction
  `wdist` is exactly `|p|² + |q|² − 2·⟨p, q⟩`: the two remainder entries `|p|² − |p|²` vanish because a
  real number minus itself is zero (this fails for `⊤`), and the factor `−2` distributes over the inner
  product because all terms are real. Second, clamping at zero commutes with a minimum, so a clamp applied
  after the minimum can be moved inside it. Third, the index set of 4096 points is the disjoint union of its
  two halves of 2048, so a minimum over it is the minimum of the two half-minima and a sum over it is the
  sum of the two half-sums. The only law of arithmetic used beyond commutativity and associativity of
  addition is `(u + v)·c = u·c + v·c` for nonnegative `u, v`.
-/
import proofs.«170437_g37056977829910_cont_8to1_b_94_13_alg».proof.Proof.Spec

noncomputable section

namespace Cert.Chamfer

open Idealize.ShloMosaic

/-! ### Points with real coordinates -/

/-- The extended real `2` is the real number `2`. -/
theorem two_eq_coe : (2 : EReal) = ((2 : ℝ) : EReal) := by
  rw [← Nat.cast_ofNat (R := EReal), ← EReal.coe_natCast]; norm_num

/-- The contraction written out term by term. -/
theorem wdist_expand (p q : Fin 3 → EReal) :
    wdist p q = (-2) * p 0 * q 0 + (-2) * p 1 * q 1 + (-2) * p 2 * q 2 + sqn p * 1
      + (sqn p - sqn p) * 1 + 1 * sqn q + 1 * (sqn q - sqn q) := by
  simp only [wdist, Fin.sum_univ_seven]
  rfl

/-- The squared norm of a real point is a real number. -/
theorem sqn_coe (a : Fin 3 → ℝ) :
    sqn (fun c => (a c : EReal)) = ((a 0 * a 0 + a 1 * a 1 + a 2 * a 2 : ℝ) : EReal) := by
  simp only [sqn, Fin.sum_univ_three]
  norm_cast

/-- The inner product of two real points is a real number. -/
theorem dot3_coe (a b : Fin 3 → ℝ) :
    dot3 (fun c => (a c : EReal)) (fun c => (b c : EReal)) =
      ((a 0 * b 0 + a 1 * b 1 + a 2 * b 2 : ℝ) : EReal) := by
  simp only [dot3, Fin.sum_univ_three]
  norm_cast

/-- On real points the contraction is `|p|² + |q|² − 2·⟨p, q⟩`: both sides are the same real number. -/
theorem wdist_coe (a b : Fin 3 → ℝ) :
    wdist (fun c => (a c : EReal)) (fun c => (b c : EReal)) =
      sqn (fun c => (a c : EReal)) + sqn (fun c => (b c : EReal))
        - 2 * dot3 (fun c => (a c : EReal)) (fun c => (b c : EReal)) := by
  rw [wdist_expand, sqn_coe, sqn_coe, dot3_coe, two_eq_coe]
  simp only [mul_one, one_mul, ← EReal.coe_mul, ← EReal.coe_add, ← EReal.coe_neg, ← EReal.coe_sub]
  congr 1
  ring

/-- On points with real coordinates the contraction, clamped at zero, is the clamped squared distance. -/
theorem max_wdist_eq_dist (p q : Fin 3 → EReal) (hp : ∀ c, ∃ r : ℝ, p c = (r : EReal))
    (hq : ∀ c, ∃ r : ℝ, q c = (r : EReal)) : max (wdist p q) 0 = dist p q := by
  choose a ha using hp
  choose b hb using hq
  obtain rfl : p = fun c => (a c : EReal) := funext ha
  obtain rfl : q = fun c => (b c : EReal) := funext hb
  rw [wdist_coe, dist]

/-! ### Minima as folds -/

/-- Clamping from below commutes with a minimum taken as a fold: `max (min u v) a = min (max u a) (max v a)`,
and the empty minimum `⊤` is unchanged by the clamp. -/
theorem max_fold_min {ι : Type*} [DecidableEq ι] (s : Finset ι) (f : ι → EReal) (a : EReal) :
    max (s.fold min ⊤ f) a = s.fold min ⊤ (fun i => max (f i) a) := by
  induction s using Finset.induction_on with
  | empty => simp
  | insert i s hi ih =>
    rw [Finset.fold_insert hi, Finset.fold_insert hi, max_min_distrib_right, ih]

/-- A fold of `min` starting from `⊤` is the finite infimum. -/
theorem fold_min_eq_inf {ι : Type*} (s : Finset ι) (f : ι → EReal) :
    s.fold min ⊤ f = s.inf f := rfl

/-! ### The two halves of the index set -/

/-- Point `2048·i + r` runs over all 4096 points exactly once as `(i, r)` runs over `2 × 2048`:
the inverse sends `n` to its quotient and remainder by 2048. -/
def halves : Fin 2 × Fin 2048 ≃ Fin 4096 where
  toFun p := rowOf p.1 p.2
  invFun n := (⟨n.val / 2048, by omega⟩, ⟨n.val % 2048, by omega⟩)
  left_inv := by
    rintro ⟨⟨i, hi⟩, ⟨r, hr⟩⟩
    simp only [rowOf, Prod.mk.injEq, Fin.mk.injEq]
    constructor <;> omega
  right_inv := by
    rintro ⟨n, hn⟩
    simp only [rowOf, Fin.mk.injEq]
    omega

/-- A sum over all points is the sum over the first half plus the sum over the second half. -/
theorem sum_halves (h : Fin 4096 → EReal) :
    ∑ n : Fin 4096, h n = (∑ r : Fin 2048, h (rowOf 0 r)) + ∑ r : Fin 2048, h (rowOf 1 r) := by
  rw [← Equiv.sum_comp halves h, Fintype.sum_prod_type, Fin.sum_univ_two]
  rfl

/-- A minimum over all points is the smaller of the minima over the two halves. -/
theorem fold_min_halves (g : Fin 4096 → EReal) :
    (Finset.univ : Finset (Fin 4096)).fold min ⊤ g =
      min ((Finset.univ : Finset (Fin 2048)).fold min ⊤ (fun r => g (rowOf 0 r)))
        ((Finset.univ : Finset (Fin 2048)).fold min ⊤ (fun r => g (rowOf 1 r))) := by
  simp only [fold_min_eq_inf]
  rw [← Finset.map_univ_equiv halves, Finset.inf_map, ← Finset.univ_product_univ,
    Finset.inf_product_left]
  rw [show (Finset.univ : Finset (Fin 2)) = {0, 1} from rfl, Finset.inf_insert, Finset.inf_singleton]
  rfl

/-! ### The pieces of the accumulated total -/

/-- The clamp applied after the minimum over the second cloud gives the nearest-neighbour distance. -/
theorem rowNear_eq_near1 (x y : Cloud) (hx : Finite x) (hy : Finite y) (b : Fin 4) (n : Fin 4096) :
    rowNear x y b n = near1 x y b n := by
  unfold rowNear near1
  rw [max_fold_min]
  have h : (fun m => max (wdist (x b n) (y b m)) 0) = fun m => dist (x b n) (y b m) :=
    funext fun m => max_wdist_eq_dist _ _ (hx b n) (hy b m)
  rw [h]

/-- The two half-minima over the first cloud, joined and clamped, give the nearest-neighbour distance. -/
theorem colSum_eq (x y : Cloud) (hx : Finite x) (hy : Finite y) (b : Fin 4) :
    colSum x y b = ∑ m : Fin 4096, near2 x y b m := by
  unfold colSum
  refine Finset.sum_congr rfl fun m _ => ?_
  unfold colNear near2
  rw [← fold_min_halves (fun n => wdist (x b n) (y b m)), max_fold_min]
  have h : (fun n => max (wdist (x b n) (y b m)) 0) = fun n => dist (x b n) (y b m) :=
    funext fun n => max_wdist_eq_dist _ _ (hx b n) (hy b m)
  rw [h]

/-- The two half-sums together are the sum of all nearest-neighbour distances of the first cloud. -/
theorem halfSum_add (x y : Cloud) (hx : Finite x) (hy : Finite y) (b : Fin 4) :
    halfSum x y b 0 + halfSum x y b 1 = ∑ n : Fin 4096, near1 x y b n := by
  unfold halfSum
  rw [sum_halves (fun n => near1 x y b n)]
  simp only [rowNear_eq_near1 x y hx hy]

/-- A half-sum is a sum of clamped quantities, hence nonnegative. -/
theorem halfSum_nonneg (x y : Cloud) (b : Fin 4) (i : Fin 2) : 0 ≤ halfSum x y b i :=
  Finset.sum_nonneg fun _ _ => le_max_right _ _

/-- One batch adds its two means to the running total. Splitting the mean of the first cloud into its two
halves needs `(u + v)·c = u·c + v·c`, which holds because the half-sums are nonnegative. -/
theorem step_eq (x y : Cloud) (hx : Finite x) (hy : Finite y) (b : Fin 4) (acc : EReal) :
    step x y b acc =
      acc + ((∑ n : Fin 4096, near1 x y b n) * inv4096 + (∑ m : Fin 4096, near2 x y b m) * inv4096) := by
  unfold step
  rw [colSum_eq x y hx hy, ← halfSum_add x y hx hy,
    EReal.right_distrib_of_nonneg (halfSum_nonneg x y b 0) (halfSum_nonneg x y b 1)]
  simp only [add_assoc]

/-- The total accumulated batch by batch, half a cloud at a time, is the Chamfer distance. -/
theorem total_eq_chamfer (x y : Cloud) (hx : Finite x) (hy : Finite y) : total x y = chamfer x y := by
  unfold total chamfer
  simp only [step_eq x y hx hy, Fin.sum_univ_four, zero_add]

end Cert.Chamfer

end
-- ==== Proof.lean ====
/-
  The Chamfer distance of two batches of point clouds: a tiled kernel against its plain definition.

  For each batch the definition forms the table of squared distances `|x|² + |y|² − 2·⟨x, y⟩` clamped at zero, takes the
  minimum along each of its two axes, and adds the two means; the result is the sum over the four batches. The kernel
  visits half a cloud at a time. It gets the unclamped table from ONE contraction of 7-entry augmented vectors (the squared
  norms ride along as extra entries, each followed by a remainder entry `s − s`), takes the row minima and clamps them,
  keeps running column minima across the two halves in a scratch row and clamps them when the batch is complete, and
  accumulates both shares, each scaled by 1/4096, into a single number.

  On the extended reals the two agree for finite inputs: the remainder entries are zero and `−2` distributes over the
  inner product only because the entries are real; clamping commutes with a minimum; a minimum or a sum over 4096 points is
  the minimum or the sum of its two halves; and dividing by 4096 is multiplying by 1/4096. The precondition supplies the
  finiteness. The frames of the two kernel programs are the generated ones; the reference's is its generated run; the
  two format round trips the idealization removed are the identity on the extended reals.
-/
import proofs.«170437_g37056977829910_cont_8to1_b_94_13_alg».proof.Defs
import proofs.«170437_g37056977829910_cont_8to1_b_94_13_alg».proof.Proof.Gen.Kernel
import proofs.«170437_g37056977829910_cont_8to1_b_94_13_alg».proof.Proof.Gen.Kernel.Skeleton
import proofs.«170437_g37056977829910_cont_8to1_b_94_13_alg».proof.Proof.Gen.Kernel.Launch
import proofs.«170437_g37056977829910_cont_8to1_b_94_13_alg».proof.Proof.Gen.Kernel.Points
import proofs.«170437_g37056977829910_cont_8to1_b_94_13_alg».proof.Proof.Gen.Kernel.Frame
import proofs.«170437_g37056977829910_cont_8to1_b_94_13_alg».proof.Proof.Gen.KernelIdeal
import proofs.«170437_g37056977829910_cont_8to1_b_94_13_alg».proof.Proof.Gen.KernelIdeal.Skeleton
import proofs.«170437_g37056977829910_cont_8to1_b_94_13_alg».proof.Proof.Gen.KernelIdeal.Launch
import proofs.«170437_g37056977829910_cont_8to1_b_94_13_alg».proof.Proof.Gen.KernelIdeal.Points
import proofs.«170437_g37056977829910_cont_8to1_b_94_13_alg».proof.Proof.Gen.KernelIdeal.Frame
import proofs.«170437_g37056977829910_cont_8to1_b_94_13_alg».proof.Proof.Gen.ReferenceIdeal
import proofs.«170437_g37056977829910_cont_8to1_b_94_13_alg».proof.Proof.Gen.ReferenceIdeal.Run
import proofs.«170437_g37056977829910_cont_8to1_b_94_13_alg».proof.Proof.Gen.ReferenceIdeal.Read
import proofs.«170437_g37056977829910_cont_8to1_b_94_13_alg».proof.Proof.Gen.Pre_finite_inputs
import proofs.«170437_g37056977829910_cont_8to1_b_94_13_alg».proof.Proof.KernelRun
import proofs.«170437_g37056977829910_cont_8to1_b_94_13_alg».proof.Proof.RefValue
import proofs.«170437_g37056977829910_cont_8to1_b_94_13_alg».proof.Proof.FiniteInputs
import proofs.«170437_g37056977829910_cont_8to1_b_94_13_alg».proof.Proof.Algebra
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Narrowing the two squared-norm vectors to the short format and widening them back is the identity on the
    extended reals. -/
theorem preserves : Cert.preserves_Kernel_KernelIdeal :=
  ⟨IdealRules.truncf_extf.statement Cert.KernelIdeal.S2048x1 .f32 .bf16,
    IdealRules.truncf_extf.statement Cert.KernelIdeal.S1x4096 .f32 .bf16⟩

/-- Both programs end at the Chamfer distance of the argument arrays: the kernel at the accumulated total, the
    reference at the definition, equal for finite inputs. -/
theorem algebraic : Cert.algebraic_KernelIdeal_ReferenceIdeal := by
  intro m ρ m' ρ' hpre hagree
  refine ⟨fun c => (fun _ => Cert.Chamfer.total (Cert.Chamfer.cloud1 m c) (Cert.Chamfer.cloud2 m c)),
    Cert.Chamfer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v24_eq, Cert.Chamfer.ref_eq_chamfer]
  obtain ⟨h0, h1⟩ := Cert.Chamfer.real_of_pre _ _ (hpre c)
  funext _
  exact (Cert.Chamfer.total_eq_chamfer (Cert.Chamfer.cloud1 m c) (Cert.Chamfer.cloud2 m c)
    (fun b n k => h0 _) (fun b n k => h1 _)).symm

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
